-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S_ : Shape := ⟨0, ![]⟩
abbrev S1x800000 : Shape := ⟨2, ![1, 800000]⟩
abbrev S800000 : Shape := ⟨1, ![800000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  slices_S2x800000_S1x800000_1_0 : S2x800000.Slices ![1, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part2 {F : FTy → Type} [FloatOps F] (main_arg1 : IVec S2x800000 32) (main_arg9 : FVec F S256x128 .f32) (main_arg10 : FVec F S128 .f32) (main_v33 : IVec S_ 1) : IVec S_ 1 :=
  let main_v34 : FVec F S256x128 .f32 := Host.absf main_arg9
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : IVec S1x800000 32 := (extractStridedSlice S1x800000 ![1, 0] · slices_S2x800000_S1x800000_1_0) main_arg1
  let main_v45 : IVec S800000 32 := shapeCast S800000 main_v44 shapeCasts_S1x800000_S800000
  let main_c_16 : IVec S_ 32 := constantI S_ 32 0#32
  let main_v46 : IVec S800000 32 := broadcastInDim S800000 ![] bcast_S_S800000 main_c_16
  let main_v47 : IVec S800000 1 := cmpi .sge main_v45 main_v46
  let main_c_17 : IVec S_ 1 := constantI S_ 1 1#1
  let main_v48 : IVec S_ 1 := (fun x v => Host.reduce IntOp.andi x v reducesTo_S800000_S_d0 h_S_) main_v47 main_c_17
  let main_v49 : IVec S_ 1 := andi main_v43 main_v48
  main_v49

def fn_part1 {F : FTy → Type} [FloatOps F] (main_arg1 : IVec S2x800000 32) (main_arg6 : FVec F S256 .f32) (main_arg7 : FVec F S256x256 .f32) (main_arg8 : FVec F S256 .f32) (main_arg9 : FVec F S256x128 .f32) (main_arg10 : FVec F S128 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg1 main_arg9 main_arg10 main_v33

def fn {F : FTy → Type} [FloatOps F] (main_arg0 : FVec F S50000x128 .f32) (main_arg1 : IVec S2x800000 32) (main_arg2 : IVec S50000 32) (main_arg3 : FVec F S128x256 .f32) (main_arg4 : FVec F S256 .f32) (main_arg5 : FVec F S256x256 .f32) (main_arg6 : FVec F S256 .f32) (main_arg7 : FVec F S256x256 .f32) (main_arg8 : FVec F S256 .f32) (main_arg9 : FVec F S256x128 .f32) (main_arg10 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg1 main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x256 : Shape := ⟨2, ![1, 256]⟩
abbrev S50000x256 : Shape := ⟨2, ![50000, 256]⟩
abbrev S5000x128 : Shape := ⟨2, ![5000, 128]⟩
abbrev S5000x256 : Shape := ⟨2, ![5000, 256]⟩
abbrev S800000x256 : Shape := ⟨2, ![800000, 256]⟩
abbrev S512x256 : Shape := ⟨2, ![512, 256]⟩
abbrev S50000x1 : Shape := ⟨2, ![50000, 1]⟩
abbrev S512 : Shape := ⟨1, ![512]⟩
abbrev S512x1 : Shape := ⟨2, ![512, 1]⟩
abbrev S512x128 : Shape := ⟨2, ![512, 128]⟩
abbrev S1x128 : Shape := ⟨2, ![1, 128]⟩

abbrev nBuf : Space → Nat
  | .hbm => 88
  | .vmem => 12
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x128, .f32⟩
  | .hbm, ⟨10, _⟩ => ⟨S128, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S50000x128, .bf16⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x128, .bf16⟩
  | .hbm, ⟨25, _⟩ => ⟨S800000x128, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S50000x128, .f32⟩
  | .hbm, ⟨35, _⟩ => ⟨S128x256, .bf16⟩
  | .hbm, ⟨36, _⟩ => ⟨S1x256, .f32⟩
  | .hbm, ⟨37, _⟩ => ⟨S50000x256, .f32⟩
  | .hbm, ⟨38, _⟩ => ⟨S50000x256, .bf16⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x256, .bf16⟩
  | .hbm, ⟨48, _⟩ => ⟨S800000x256, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S50000x256, .f32⟩
  | .hbm, ⟨58, _⟩ => ⟨S256x256, .bf16⟩
  | .hbm, ⟨59, _⟩ => ⟨S1x256, .f32⟩
  | .hbm, ⟨60, _⟩ => ⟨S50000x256, .f32⟩
  | .hbm, ⟨61, _⟩ => ⟨S_, .f32⟩
  | .hbm, ⟨62, _⟩ => ⟨S512x256, .f32⟩
  | .hbm, ⟨63, _⟩ => ⟨S50000x1, .i32⟩
  | .hbm, ⟨64, _⟩ => ⟨S512x256, .f32⟩
  | .hbm, ⟨65, _⟩ => ⟨S_, .f32⟩
  | .hbm, ⟨66, _⟩ => ⟨S50000, .f32⟩
  | .hbm, ⟨67, _⟩ => ⟨S_, .f32⟩
  | .hbm, ⟨68, _⟩ => ⟨S512, .f32⟩
  | .hbm, ⟨69, _⟩ => ⟨S50000x1, .i32⟩
  | .hbm, ⟨70, _⟩ => ⟨S512, .f32⟩
  | .hbm, ⟨71, _⟩ => ⟨S_, .f32⟩
  | .hbm, ⟨72, _⟩ => ⟨S512, .f32⟩
  | .hbm, ⟨73, _⟩ => ⟨S512, .f32⟩
  | .hbm, ⟨74, _⟩ => ⟨S512x1, .f32⟩
  | .hbm, ⟨75, _⟩ => ⟨S512x256, .f32⟩
  | .hbm, ⟨76, _⟩ => ⟨S512x256, .f32⟩
  | .hbm, ⟨77, _⟩ => ⟨S512x256, .f32⟩
  | .hbm, ⟨78, _⟩ => ⟨S1x256, .f32⟩
  | .hbm, ⟨79, _⟩ => ⟨S512x256, .f32⟩
  | .hbm, ⟨80, _⟩ => ⟨S512x256, .f32⟩
  | .hbm, ⟨81, _⟩ => ⟨S_, .f32⟩
  | .hbm, ⟨82, _⟩ => ⟨S512x256, .f32⟩
  | .hbm, ⟨83, _⟩ => ⟨S512x256, .f32⟩
  | .hbm, ⟨84, _⟩ => ⟨S512x128, .f32⟩
  | .hbm, ⟨85, _⟩ => ⟨S1x128, .f32⟩
  | .hbm, ⟨86, _⟩ => ⟨S512x128, .f32⟩
  | .hbm, ⟨87, _⟩ => ⟨S512x128, .f32⟩
  | .local _ .vmem, ⟨0, _⟩ => ⟨S5000x128, .f32⟩
  | .local _ .vmem, ⟨1, _⟩ => ⟨S5000x128, .f32⟩
  | .local _ .vmem, ⟨2, _⟩ => ⟨S128x256, .bf16⟩
  | .local _ .vmem, ⟨3, _⟩ => ⟨S1x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S5000x256, .f32⟩
  | .local _ .vmem, ⟨8, _⟩ => ⟨S256x256, .bf16⟩
  | .local _ .vmem, ⟨9, _⟩ => ⟨S1x256, .f32⟩
  | .local _ .vmem, ⟨10, _⟩ => ⟨S5000x256, .f32⟩
  | .local _ .vmem, ⟨11, _⟩ => ⟨S5000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_1 : Ref sig .tc := ⟨.hbm, 26, rfl⟩
abbrev main_v13 : Ref sig .tc := ⟨.hbm, 27, rfl⟩
abbrev main_v14 : Ref sig .tc := ⟨.hbm, 28, rfl⟩
abbrev main_c_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_3 : Ref sig .tc := ⟨.hbm, 39, rfl⟩
abbrev main_v24 : Ref sig .tc := ⟨.hbm, 40, rfl⟩
abbrev main_v25 : Ref sig .tc := ⟨.hbm, 41, rfl⟩
abbrev main_c_4 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_c_6 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_7 : Ref sig .tc := ⟨.hbm, 65, rfl⟩
abbrev main_v45 : Ref sig .tc := ⟨.hbm, 66, rfl⟩
abbrev main_cst_8 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_9 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_call0_cst : Ref sig .tc := ⟨.hbm, 81, rfl⟩
abbrev main_call0_v0 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  shapeCasts_S256_S1x256 : S256.ShapeCasts S1x256
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bcast_S_S512x256 : S_.BroadcastsInDim S512x256 (![] : Fin 0 → Fin S512x256.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S512 : S_.BroadcastsInDim S512 (![] : Fin 0 → Fin S512.rank)
  bcast_S512_S512x1_0 : S512.BroadcastsInDim S512x1 (![0] : Fin 1 → Fin S512x1.rank)
  bcast_S512x1_S512x256_0_1 : S512x1.BroadcastsInDim S512x256 (![0, 1] : Fin 2 → Fin S512x256.rank)
  bcast_S256_S1x256_1 : S256.BroadcastsInDim S1x256 (![1] : Fin 1 → Fin S1x256.rank)
  bcast_S1x256_S512x256_0_1 : S1x256.BroadcastsInDim S512x256 (![0, 1] : Fin 2 → Fin S512x256.rank)
  bcast_S128_S1x128_1 : S128.BroadcastsInDim S1x128 (![1] : Fin 1 → Fin S1x128.rank)
  bcast_S1x128_S512x128_0_1 : S1x128.BroadcastsInDim S512x128 (![0, 1] : Fin 2 → Fin S512x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x256_S5000x256_1_0_0_1_n_n_wf : DotDims.WF S5000x128 S128x256 S5000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S5000x256_S256x256_S5000x256_1_0_0_1_n_n_wf : DotDims.WF S5000x256 S256x256 S5000x256 [1] [0] [0] [1] [] []
  scatter_S512x256_S50000x1_S50000x256_1_0_0_1_wf : ScatterDims.WF S512x256 S50000x1 S50000x256 [1] [0] [0] 1
  scatter_S512_S50000x1_S50000_n_0_0_1_wf : ScatterDims.WF S512 S50000x1 S50000 [] [0] [0] 1
  dot_S512x256_S256x256_S512x256_1_0_0_1_n_n_wf : DotDims.WF S512x256 S256x256 S512x256 [1] [0] [0] [1] [] []
  dot_S512x256_S256x128_S512x128_1_0_0_1_n_n_wf : DotDims.WF S512x256 S256x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .bf16 = 32 ∨ (Rect.block (s := S128x256) S128x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S50000x256.size a
  hwx0_3 : ∀ i : grid0.Coords, EltTy.bits .f32 = 32 ∨ (Rect.block (s := S50000x256) S5000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .bf16 = 32 ∨ (Rect.block (s := S256x256) S256x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x256.size a ≤ S50000x256.size a
  hwx1_3 : ∀ i : grid1.Coords, EltTy.bits .f32 = 32 ∨ (Rect.block (s := S50000x256) S5000x256.size (cc1_transform_3 i) (hinb1_3 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def scatter_S512x256_S50000x1_S50000x256_1_0_0_1 : ScatterDims S512x256 S50000x1 S50000x256 where
  updateWindowDims := [1]
  insertedWindowDims := [0]
  scatterDimsToOperandDims := [0]
  indexVectorDim := 1
  wf := scatter_S512x256_S50000x1_S50000x256_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf

abbrev win0_0 : Pipeline.Window sig grid0 :=
  Pipeline.Window.ofSpec (Memref.whole main_v19) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v21) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S5000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v38) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v40) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v41) S5000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x256 : Shape := ⟨2, ![50000, 256]⟩
abbrev S1x256 : Shape := ⟨2, ![1, 256]⟩
abbrev S800000x256 : Shape := ⟨2, ![800000, 256]⟩
abbrev S512x256 : Shape := ⟨2, ![512, 256]⟩
abbrev S50000x1 : Shape := ⟨2, ![50000, 1]⟩
abbrev S512 : Shape := ⟨1, ![512]⟩
abbrev S512x1 : Shape := ⟨2, ![512, 1]⟩
abbrev S512x128 : Shape := ⟨2, ![512, 128]⟩
abbrev S1x128 : Shape := ⟨2, ![1, 128]⟩

abbrev nBuf : Space → Nat
  | .hbm => 84
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x128, .f32⟩
  | .hbm, ⟨10, _⟩ => ⟨S128, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S_, .f32⟩
  | .hbm, ⟨25, _⟩ => ⟨S50000x128, .f32⟩
  | .hbm, ⟨26, _⟩ => ⟨S800000x1, .i32⟩
  | .hbm, ⟨27, _⟩ => ⟨S50000x128, .f32⟩
  | .hbm, ⟨28, _⟩ => ⟨S50000x128, .f32⟩
  | .hbm, ⟨29, _⟩ => ⟨S50000x256, .f32⟩
  | .hbm, ⟨30, _⟩ => ⟨S1x256, .f32⟩
  | .hbm, ⟨31, _⟩ => ⟨S50000x256, .f32⟩
  | .hbm, ⟨32, _⟩ => ⟨S50000x256, .f32⟩
  | .hbm, ⟨33, _⟩ => ⟨S_, .f32⟩
  | .hbm, ⟨34, _⟩ => ⟨S50000x256, .f32⟩
  | .hbm, ⟨35, _⟩ => ⟨S50000x256, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000x256, .f32⟩
  | .hbm, ⟨45, _⟩ => ⟨S_, .f32⟩
  | .hbm, ⟨46, _⟩ => ⟨S50000x256, .f32⟩
  | .hbm, ⟨47, _⟩ => ⟨S800000x1, .i32⟩
  | .hbm, ⟨48, _⟩ => ⟨S50000x256, .f32⟩
  | .hbm, ⟨49, _⟩ => ⟨S50000x256, .f32⟩
  | .hbm, ⟨50, _⟩ => ⟨S50000x256, .f32⟩
  | .hbm, ⟨51, _⟩ => ⟨S1x256, .f32⟩
  | .hbm, ⟨52, _⟩ => ⟨S50000x256, .f32⟩
  | .hbm, ⟨53, _⟩ => ⟨S50000x256, .f32⟩
  | .hbm, ⟨54, _⟩ => ⟨S_, .f32⟩
  | .hbm, ⟨55, _⟩ => ⟨S50000x256, .f32⟩
  | .hbm, ⟨56, _⟩ => ⟨S50000x256, .f32⟩
  | .hbm, ⟨57, _⟩ => ⟨S_, .f32⟩
  | .hbm, ⟨58, _⟩ => ⟨S512x256, .f32⟩
  | .hbm, ⟨59, _⟩ => ⟨S50000x1, .i32⟩
  | .hbm, ⟨60, _⟩ => ⟨S512x256, .f32⟩
  | .hbm, ⟨61, _⟩ => ⟨S_, .f32⟩
  | .hbm, ⟨62, _⟩ => ⟨S50000, .f32⟩
  | .hbm, ⟨63, _⟩ => ⟨S_, .f32⟩
  | .hbm, ⟨64, _⟩ => ⟨S512, .f32⟩
  | .hbm, ⟨65, _⟩ => ⟨S50000x1, .i32⟩
  | .hbm, ⟨66, _⟩ => ⟨S512, .f32⟩
  | .hbm, ⟨67, _⟩ => ⟨S_, .f32⟩
  | .hbm, ⟨68, _⟩ => ⟨S512, .f32⟩
  | .hbm, ⟨69, _⟩ => ⟨S512, .f32⟩
  | .hbm, ⟨70, _⟩ => ⟨S512x1, .f32⟩
  | .hbm, ⟨71, _⟩ => ⟨S512x256, .f32⟩
  | .hbm, ⟨72, _⟩ => ⟨S512x256, .f32⟩
  | .hbm, ⟨73, _⟩ => ⟨S512x256, .f32⟩
  | .hbm, ⟨74, _⟩ => ⟨S1x256, .f32⟩
  | .hbm, ⟨75, _⟩ => ⟨S512x256, .f32⟩
  | .hbm, ⟨76, _⟩ => ⟨S512x256, .f32⟩
  | .hbm, ⟨77, _⟩ => ⟨S_, .f32⟩
  | .hbm, ⟨78, _⟩ => ⟨S512x256, .f32⟩
  | .hbm, ⟨79, _⟩ => ⟨S512x256, .f32⟩
  | .hbm, ⟨80, _⟩ => ⟨S512x128, .f32⟩
  | .hbm, ⟨81, _⟩ => ⟨S1x128, .f32⟩
  | .hbm, ⟨82, _⟩ => ⟨S512x128, .f32⟩
  | .hbm, ⟨83, _⟩ => ⟨S512x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_call0_cst : Ref sig .tc := ⟨.hbm, 33, rfl⟩
abbrev main_call0_v0 : Ref sig .tc := ⟨.hbm, 34, rfl⟩
abbrev main_v19 : Ref sig .tc := ⟨.hbm, 35, rfl⟩
abbrev main_c_1 : Ref sig .tc := ⟨.hbm, 36, rfl⟩
abbrev main_v20 : Ref sig .tc := ⟨.hbm, 37, rfl⟩
abbrev main_v21 : Ref sig .tc := ⟨.hbm, 38, rfl⟩
abbrev main_c_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_call1_cst : Ref sig .tc := ⟨.hbm, 54, rfl⟩
abbrev main_call1_v0 : Ref sig .tc := ⟨.hbm, 55, rfl⟩
abbrev main_v35 : Ref sig .tc := ⟨.hbm, 56, rfl⟩
abbrev main_cst_4 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_5 : Ref sig .tc := ⟨.hbm, 61, rfl⟩
abbrev main_v39 : Ref sig .tc := ⟨.hbm, 62, rfl⟩
abbrev main_cst_6 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_7 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_call2_cst : Ref sig .tc := ⟨.hbm, 77, rfl⟩
abbrev main_call2_v0 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S_S512x256 : S_.BroadcastsInDim S512x256 (![] : Fin 0 → Fin S512x256.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S512 : S_.BroadcastsInDim S512 (![] : Fin 0 → Fin S512.rank)
  bcast_S512_S512x1_0 : S512.BroadcastsInDim S512x1 (![0] : Fin 1 → Fin S512x1.rank)
  bcast_S512x1_S512x256_0_1 : S512x1.BroadcastsInDim S512x256 (![0, 1] : Fin 2 → Fin S512x256.rank)
  bcast_S1x256_S512x256_0_1 : S1x256.BroadcastsInDim S512x256 (![0, 1] : Fin 2 → Fin S512x256.rank)
  bcast_S128_S1x128_1 : S128.BroadcastsInDim S1x128 (![1] : Fin 1 → Fin S1x128.rank)
  bcast_S1x128_S512x128_0_1 : S1x128.BroadcastsInDim S512x128 (![0, 1] : Fin 2 → Fin S512x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  scatter_S512x256_S50000x1_S50000x256_1_0_0_1_wf : ScatterDims.WF S512x256 S50000x1 S50000x256 [1] [0] [0] 1
  scatter_S512_S50000x1_S50000_n_0_0_1_wf : ScatterDims.WF S512 S50000x1 S50000 [] [0] [0] 1
  dot_S512x256_S256x256_S512x256_1_0_0_1_n_n_wf : DotDims.WF S512x256 S256x256 S512x256 [1] [0] [0] [1] [] []
  dot_S512x256_S256x128_S512x128_1_0_0_1_n_n_wf : DotDims.WF S512x256 S256x128 S512x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S512x256_S50000x1_S50000x256_1_0_0_1 : ScatterDims S512x256 S50000x1 S50000x256 where
  updateWindowDims := [1]
  insertedWindowDims := [0]
  scatterDimsToOperandDims := [0]
  indexVectorDim := 1
  wf := scatter_S512x256_S50000x1_S50000x256_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf

class Facts : Prop extends Facts₀ where

variable [Facts]
-- ==== Proof.KernelRun.lean ====
/-
  The idealized kernel's run with its RESULT named.

  The program is seven segments: host operations, the first Linear + ReLU region, host operations, the second
  region, and three stretches of host operations (the pooling and the projection head, the ReLU's call in the
  middle). Every weakly fair execution terminates with each unscoped buffer at the last boundary's contents, a fold
  of the segments over the launch memory; the post below keeps, beside the unchanged arguments, what that fold
  leaves in the result buffer. What the fold IS at that buffer is read segment by segment elsewhere.
-/
import proofs.«161108_j79663053406797_2_alg».proof.Proof.Gen.KernelIdeal.Frame

set_option maxRecDepth 16384

noncomputable section

namespace Cert.KernelIdeal.GinRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one
set_option backward.isDefEq.respectTransparency.types false in
/-- From any memory with zero counters every weakly fair execution of the program terminates, nothing faulting,
    with the result buffer at the last boundary's contents and every argument array as launched. -/
theorem run_result : θ_run defs (onTc (τ := τ) (main (F := F))) ⟨m, fun _ => 0, ρ⟩ (fun r => ∀ c : Dev nD,
      r.2.mem ((c.tc : Thread nD τ).loc main_v62) = W7 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v62 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c)⟩)

end Cert.KernelIdeal.GinRun

end
-- ==== Proof.LibPlainDot.lean ====
/-
  A plain matrix product's contraction sum, read at an index.

  For the dimension numbers of an `[M, K] × [K, N] → [M, N]` product — the left operand contracted on its second
  axis, the right on its first, no batch axis — the contraction index has one coordinate, ranging over `Fin K`; at the
  result index `(r, c)` and contraction position `k` the left operand is read at `(r, k)` and the right at `(k, c)`.
  So a sum over the contraction index of any function of the two operand indices is the sum over `k : Fin K` of that
  function at `(r, k)` and `(k, c)`. Both a kernel's matrix unit product into a zero accumulator and the host's
  `dot_general` are such sums over the extended reals (of the products of the operands' entries), so this is the one
  re-indexing either needs.
-/
import Idealize.ShloMosaic.PureOps.Dims
import Idealize.ShloMosaic.Lib.ValueIdx

namespace Idealize.ShloMosaic.PlainDot

open Idealize.ShloMosaic Idealize.ShloMosaic.ValueIdx

/-- The left operand's index at result index `(r, c)` and contraction position `k` is `(r, k)`, the right operand's
    `(k, c)`, for any record with the plain product's dimension numbers; `e` is the bijection between the contraction
    index and `Fin K`. -/
theorem plain_idx {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K) (r : Fin M) (c : Fin N) (k : Fin K) :
    d.lhsIdx (ix2 r c) ((contrEquiv1 d K hr hs).symm k) = ix2 r k
      ∧ d.rhsIdx (ix2 r c) ((contrEquiv1 d K hr hs).symm k) = ix2 k c := by
  constructor
  · funext a
    refine Fin.ext ?_
    match a with
    | ⟨0, _⟩ =>
      show (d.lhsIdx (ix2 r c) ((contrEquiv1 d K hr hs).symm k) 0).val = r.val
      unfold DotDims.lhsIdx
      rw [dif_neg (by rw [h5]; exact List.not_mem_nil), dif_pos (by rw [h3]; exact List.mem_singleton.mpr rfl)]
      simp only [Fin.val_cast]
      have key : ∀ (p q : Nat) (hp : p < 2) (hq : q < 2), p = q →
          ((ix2 r c : (⟨2, ![M, N]⟩ : Shape).Idx) ⟨p, hp⟩).val = ((ix2 r c : (⟨2, ![M, N]⟩ : Shape).Idx) ⟨q, hq⟩).val :=
        fun p q hp hq h => by subst h; rfl
      exact key _ 0 _ (by decide) (by simp [h5, h3])
    | ⟨1, _⟩ =>
      show (d.lhsIdx (ix2 r c) ((contrEquiv1 d K hr hs).symm k) 1).val = k.val
      rw [d.lhsIdx_val_of_single h1]
      exact contrEquiv1_symm_val d K hr hs k
  · funext a
    refine Fin.ext ?_
    match a with
    | ⟨0, _⟩ =>
      show (d.rhsIdx (ix2 r c) ((contrEquiv1 d K hr hs).symm k) 0).val = k.val
      rw [d.rhsIdx_val_of_single h2]
      exact contrEquiv1_symm_val d K hr hs k
    | ⟨1, _⟩ =>
      show (d.rhsIdx (ix2 r c) ((contrEquiv1 d K hr hs).symm k) 1).val = c.val
      unfold DotDims.rhsIdx
      rw [dif_neg (by rw [h6]; exact List.not_mem_nil), dif_pos (by rw [h4]; exact List.mem_singleton.mpr rfl)]
      simp only [Fin.val_cast]
      have key : ∀ (p q : Nat) (hp : p < 2) (hq : q < 2), p = q →
          ((ix2 r c : (⟨2, ![M, N]⟩ : Shape).Idx) ⟨p, hp⟩).val = ((ix2 r c : (⟨2, ![M, N]⟩ : Shape).Idx) ⟨q, hq⟩).val :=
        fun p q hp hq h => by subst h; rfl
      exact key _ 1 _ (by decide) (by simp [h5, h3, h4])

/-- THE CONTRACTION SUM OF A PLAIN PRODUCT at `(r, c)`: the sum over `k : Fin K` at the operand indices `(r, k)` and
    `(k, c)`, in any commutative additive monoid. -/
theorem plain_sum {β : Type*} [AddCommMonoid β] {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K)
    (f : (⟨2, ![M, K]⟩ : Shape).Idx → (⟨2, ![K, N]⟩ : Shape).Idx → β) (r : Fin M) (c : Fin N) :
    ∑ q : d.contr.Idx, f (d.lhsIdx (ix2 r c) q) (d.rhsIdx (ix2 r c) q) = ∑ k : Fin K, f (ix2 r k) (ix2 k c) := by
  rw [← Equiv.sum_comp (contrEquiv1 d K hr hs).symm]
  refine Finset.sum_congr rfl fun k _ => ?_
  obtain ⟨hl, hr'⟩ := plain_idx d h1 h2 h3 h4 h5 h6 hr hs r c k
  rw [hl, hr']

end Idealize.ShloMosaic.PlainDot
-- ==== Proof.LibRowsTimes.lean ====
/-
  A plain matrix product over the extended reals, as one function of its two operands.

  `rowsTimes x w` is the array whose entry `(r, c)` is the sum over `k` of `x (r, k) · w (k, c)`. Both the matrix unit's
  product into a zero accumulator and the host's `dot_general` ARE this function when their dimension numbers are the plain
  product's (the left operand contracted on its second axis, the right on its first, no batch axis): each is by definition
  the sum, over the contraction index, of the products of the operands' entries at the record's operand indices, and that
  sum is re-indexed by `k : Fin K` (`PlainDot.plain_sum`). Nothing here uses finiteness: the two sides are the same sum of
  the same products, term by term.
-/
import proofs.«161108_j79663053406797_2_alg».proof.Proof.LibPlainDot
import Idealize.ShloMosaic.PureOps.Ideal.Laws

noncomputable section

namespace Idealize.ShloMosaic.RowsTimes

open Idealize.ShloMosaic Idealize.ShloMosaic.ValueIdx

/-- Entry `(r, c)` is the sum over `k` of `x (r, k) · w (k, c)`. -/
def rowsTimes {M K N : Nat} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

theorem rowsTimes_apply {M K N : Nat} (x : (⟨2, ![M, K]⟩ : Shape).Idx → EReal) (w : (⟨2, ![K, N]⟩ : Shape).Idx → EReal)
    (r : Fin M) (c : Fin N) : rowsTimes x w (ix2 r c) = ∑ k : Fin K, x (ix2 r k) * w (ix2 k c) := rfl

/-- The matrix unit's product into the zero accumulator, at an entry: the plain sum of products. -/
theorem matmul_zero_apply {M K N : Nat} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K) (prec : Option ContractPrecision)
    (x : FVec Ideal ⟨2, ![M, K]⟩ φ₁) (w : FVec Ideal ⟨2, ![K, N]⟩ φ₂) (r : Fin M) (c : Fin N) :
    FloatOps.matmul d prec x w (constant ⟨2, ![M, N]⟩ .f32 0x00000000#32) (ix2 r c)
      = ∑ k : Fin K, x (ix2 r k) * w (ix2 k c) :=
  (Ideal.matmul_constant_zero_apply d prec x w (ix2 r c)).trans
    (PlainDot.plain_sum d h1 h2 h3 h4 h5 h6 hr hs (fun i j => x i * w j) r c)

/-- The host's `dot_general` of a plain product IS `rowsTimes` of its operands. -/
theorem hostDot_eq {M K N : Nat} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K) (prec : Option ContractPrecision)
    (x : FVec Ideal ⟨2, ![M, K]⟩ φ₁) (w : FVec Ideal ⟨2, ![K, N]⟩ φ₂) :
    Host.dotGeneral (F := Ideal) d prec x w = rowsTimes x w := by
  funext i
  obtain ⟨r, c, rfl⟩ : ∃ (r : Fin M) (c : Fin N), i = ix2 r c := ⟨i 0, i 1, eq_ix2 i⟩
  unfold Host.dotGeneral
  rw [Ideal.dotGeneral_apply]
  exact PlainDot.plain_sum d h1 h2 h3 h4 h5 h6 hr hs (fun i j => x i * w j) r c

end Idealize.ShloMosaic.RowsTimes

end
-- ==== Proof.GinSpec.lean ====
/-
  The two programs' building blocks as functions of arrays, over the extended reals.

  Both programs are a two-layer graph convolution: at each layer a node's row is added to the sum of the rows of
  its in-neighbours (an edge `e` runs from node `src e` to node `dst e`), and the result goes through a linear map, a
  bias and a ReLU; the per-graph mean of the node rows then goes through a two-layer projection head.

  * `aggSum` is the kernel side's aggregation as the program spells it: the rows gathered at the (wrapped) source
    nodes are scatter-added INTO the node array at the (wrapped) target nodes, so the array itself is the start value.
  * `layerOut` is one layer's output read index by index: entry `(n, c)` is `max (∑ k, hs (n, k) · w (k, c) + b (0, c)) 0`.
-/
import proofs.«161108_j79663053406797_2_alg».proof.KernelIdeal
import proofs.«161108_j79663053406797_2_alg».proof.Proof.Gen.KernelIdeal
import proofs.«161108_j79663053406797_2_alg».proof.Proof.LibRowsTimes
import Idealize.ShloMosaic.PureOps.Ideal
import Idealize.ShloMosaic.Lib.ValueIdx

noncomputable section

namespace Cert.Gin

open Idealize.ShloMosaic Idealize.ShloMosaic.ValueIdx Cert.KernelIdeal Cert.KernelIdeal.Gen

/-- The source node of every edge: row 0 of the edge list. -/
def srcOf (ei : IVec S2x800000 32) : IVec S800000 32 :=
  shapeCast S800000 (extractStridedSlice S1x800000 ![0, 0] ei slices_S2x800000_S1x800000_0_0) shapeCasts_S1x800000_S800000

/-- The target node of every edge: row 1 of the edge list. -/
def dstOf (ei : IVec S2x800000 32) : IVec S800000 32 :=
  shapeCast S800000 (extractStridedSlice S1x800000 ![1, 0] ei slices_S2x800000_S1x800000_1_0) shapeCasts_S1x800000_S800000

/-- Python's reading of a negative position: `v + 50000` where `v < 0`, `v` elsewhere. -/
def wrapNeg (v : IVec S800000 32) : IVec S800000 32 :=
  select (cmpi .slt v (broadcastInDim S800000 ![] bcast_S_S800000 (constantI S_ 32 0#32)))
    (addi v (broadcastInDim S800000 ![] bcast_S_S800000 (constantI S_ 32 50000#32))) v

/-- A vector of positions stood up as the one-column index table a gather or a scatter takes. -/
def column (v : IVec S800000 32) : IVec S800000x1 32 :=
  broadcastInDim S800000x1 ![0] bcast_S800000_S800000x1_0 v

/-- Layer 1's aggregation: into the node array itself, at each edge's wrapped target, the row of its wrapped source. -/
def aggSum128 (x : FVec Ideal S50000x128 .f32) (src dst : IVec S800000 32) : FVec Ideal S50000x128 .f32 :=
  Host.scatterAdd (F := Ideal) scatter_S50000x128_S800000x1_S800000x128_1_0_0_1 x (column (wrapNeg dst))
    (extf .f32 (Host.gather gather_S50000x128_S800000x1_S800000x128_1_0_n_n_0_1_1128
      (truncf .bf16 x bitsLt_bf16_f32) (column (wrapNeg src))) bitsLt_bf16_f32)

/-- Layer 2's aggregation, on rows of width 256. -/
def aggSum256 (x : FVec Ideal S50000x256 .f32) (src dst : IVec S800000 32) : FVec Ideal S50000x256 .f32 :=
  Host.scatterAdd (F := Ideal) scatter_S50000x256_S800000x1_S800000x256_1_0_0_1 x (column (wrapNeg dst))
    (extf .f32 (Host.gather gather_S50000x256_S800000x1_S800000x256_1_0_n_n_0_1_1256
      (truncf .bf16 x bitsLt_bf16_f32) (column (wrapNeg src))) bitsLt_bf16_f32)

/-- Layer 1's output: entry `(n, c)` is `max (∑ k, hs (n, k) · w (k, c) + b (0, c)) 0`. -/
def layerOut128 (hs : FVec Ideal S50000x128 .f32) (w : FVec Ideal S128x256 .bf16) (b : FVec Ideal S1x256 .f32) :
    FVec Ideal S50000x256 .f32 :=
  fun i => max ((∑ k : Fin 128, hs (ix2 (i 0) k) * w (ix2 k (i 1))) + b (ix2 (0 : Fin 1) (i 1))) 0

/-- Layer 2's output, from rows of width 256. -/
def layerOut256 (hs : FVec Ideal S50000x256 .f32) (w : FVec Ideal S256x256 .bf16) (b : FVec Ideal S1x256 .f32) :
    FVec Ideal S50000x256 .f32 :=
  fun i => max ((∑ k : Fin 256, hs (ix2 (i 0) k) * w (ix2 k (i 1))) + b (ix2 (0 : Fin 1) (i 1))) 0

theorem layerOut128_apply (hs : FVec Ideal S50000x128 .f32) (w : FVec Ideal S128x256 .bf16) (b : FVec Ideal S1x256 .f32)
    (n : Fin 50000) (c : Fin 256) :
    layerOut128 hs w b (ix2 n c) = max ((∑ k : Fin 128, hs (ix2 n k) * w (ix2 k c)) + b (ix2 (0 : Fin 1) c)) 0 := rfl

theorem layerOut256_apply (hs : FVec Ideal S50000x256 .f32) (w : FVec Ideal S256x256 .bf16) (b : FVec Ideal S1x256 .f32)
    (n : Fin 50000) (c : Fin 256) :
    layerOut256 hs w b (ix2 n c) = max ((∑ k : Fin 256, hs (ix2 n k) * w (ix2 k c)) + b (ix2 (0 : Fin 1) c)) 0 := rfl

/-- The per-graph mean of the node rows: the rows scatter-added at their graph's number, over the count of the graph's
    nodes (at least one). -/
def graphMean (h : FVec Ideal S50000x256 .f32) (batch : IVec S50000 32) : FVec Ideal S512x256 .f32 :=
  Host.divf (F := Ideal)
    (Host.scatterAdd (F := Ideal) scatter_S512x256_S50000x1_S50000x256_1_0_0_1
      (broadcastInDim S512x256 ![] bcast_S_S512x256 (constant (F := Ideal) S_ .f32 0x00000000#32))
      (broadcastInDim S50000x1 ![0] bcast_S50000_S50000x1_0 batch) h)
    (broadcastInDim S512x256 ![0, 1] bcast_S512x1_S512x256_0_1
      (broadcastInDim S512x1 ![0] bcast_S512_S512x1_0
        (maximumf
          (Host.scatterAdd (F := Ideal) scatter_S512_S50000x1_S50000_n_0_0_1
            (broadcastInDim S512 ![] bcast_S_S512 (constant (F := Ideal) S_ .f32 0x00000000#32))
            (broadcastInDim S50000x1 ![0] bcast_S50000_S50000x1_0 batch)
            (broadcastInDim S50000 ![] bcast_S_S50000 (constant (F := Ideal) S_ .f32 0x3F800000#32)))
          (broadcastInDim S512 ![] bcast_S_S512 (constant (F := Ideal) S_ .f32 0x3F800000#32)))))

/-- The projection head: Linear, ReLU, Linear. -/
def projHead (g : FVec Ideal S512x256 .f32) (P1 : FVec Ideal S256x256 .f32) (pb1 : FVec Ideal S256 .f32)
    (P2 : FVec Ideal S256x128 .f32) (pb2 : FVec Ideal S128 .f32) : FVec Ideal S512x128 .f32 :=
  addf
    (Host.dotGeneral (F := Ideal) dot_S512x256_S256x128_S512x128_1_0_0_1_n_n none
      (maximumf
        (addf (Host.dotGeneral (F := Ideal) dot_S512x256_S256x256_S512x256_1_0_0_1_n_n none g P1)
          (broadcastInDim S512x256 ![0, 1] bcast_S1x256_S512x256_0_1 (broadcastInDim S1x256 ![1] bcast_S256_S1x256_1 pb1)))
        (broadcastInDim S512x256 ![] bcast_S_S512x256 (constant (F := Ideal) S_ .f32 0x00000000#32)))
      P2)
    (broadcastInDim S512x128 ![0, 1] bcast_S1x128_S512x128_0_1 (broadcastInDim S1x128 ![1] bcast_S128_S1x128_1 pb2))

/-- Everything after the second layer: the graph means through the projection head. -/
def poolHead (h : FVec Ideal S50000x256 .f32) (batch : IVec S50000 32) (P1 : FVec Ideal S256x256 .f32)
    (pb1 : FVec Ideal S256 .f32) (P2 : FVec Ideal S256x128 .f32) (pb2 : FVec Ideal S128 .f32) : FVec Ideal S512x128 .f32 :=
  projHead (graphMean h batch) P1 pb1 P2 pb2

end Cert.Gin

end
-- ==== Proof.KernelFold.lean ====
/-
  What the host operations of the kernel program leave in the buffers that its two regions and its result read,
  as terms of the launch memory.

  The program is seven segments: host operations, the first layer's region, host operations, the second layer's
  region, and three stretches of host operations down to the result. Each stretch is read first from ANY contents
  `V` at its start: the buffer it computes is the specification's function (`Cert.Gin`) of the buffers it reads,
  and a buffer none of its operations writes is unchanged. The buffers a later stretch reads and no stretch before
  it recomputes (the arguments; the two edge vectors, computed before the first region) are then walked back through
  the earlier segments to the launch memory: a region changes only its own arrays.
-/
import proofs.«161108_j79663053406797_2_alg».proof.Proof.Gen.KernelIdeal.Frame
import proofs.«161108_j79663053406797_2_alg».proof.Proof.GinSpec
import Idealize.ShloMosaic.Lib.StableHlo.Run

set_option maxRecDepth 16384

noncomputable section

namespace Cert.KernelIdeal.GinFold

open Cert.KernelIdeal Cert.KernelIdeal.Gen Cert.Gin Idealize.ShloMosaic Idealize.ShloMosaic.TcCoe Idealize.SL.Sem

variable (m : (ℓ : Loc nD τ sig) → Buf (Elt Ideal) ℓ) (ρ : Dev nD → PrngReg)

/-- A buffer that none of a stretch's operations writes keeps its contents through the stretch. -/
local macro "unwritten " ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.reshape_writes, Finset.mem_singleton]
      repeat' apply And.intro
      all_goals exact StableHlo.devRef_ne_of_ne (by decide))))

/-! ## Each stretch of host operations, from any contents `V` at its start -/

section Stretches

variable (V : Valuation τ sig (Elt Ideal))

/-! ### Before the first layer -/

/-- The source nodes: row 0 of the edge list. -/
theorem src0 : StableHlo.after (hostOps0 (F := Ideal)) V (Proc.devRef .tc main_v1) = srcOf (V (Proc.devRef .tc main_arg1)) := by
  after_results <;> rfl

/-- The target nodes: row 1 of the edge list. -/
theorem dst0 : StableHlo.after (hostOps0 (F := Ideal)) V (Proc.devRef .tc main_v3) = dstOf (V (Proc.devRef .tc main_arg1)) := by
  after_results <;> rfl

/-- The first layer's aggregated rows. -/
theorem rows0 : StableHlo.after (hostOps0 (F := Ideal)) V (Proc.devRef .tc main_v19)
    = aggSum128 (V (Proc.devRef .tc main_arg0)) (srcOf (V (Proc.devRef .tc main_arg1))) (dstOf (V (Proc.devRef .tc main_arg1))) := by
  after_results_simp <;> rfl

/-- The first layer's weights, narrowed. -/
theorem weights0 : StableHlo.after (hostOps0 (F := Ideal)) V (Proc.devRef .tc main_v20)
    = truncf (F := Ideal) (s := S128x256) (φ := .f32) .bf16 (V (Proc.devRef .tc main_arg3)) bitsLt_bf16_f32 := by
  after_results <;> rfl

/-- The first layer's bias, as a one-row table. -/
theorem bias0 : StableHlo.after (hostOps0 (F := Ideal)) V (Proc.devRef .tc main_v21)
    = shapeCast (s := S256) S1x256 (V (Proc.devRef .tc main_arg4)) shapeCasts_S256_S1x256 := by
  after_results <;> rfl

theorem keep0_arg2 : StableHlo.after (hostOps0 (F := Ideal)) V (Proc.devRef .tc main_arg2) = V (Proc.devRef .tc main_arg2) := by
  unwritten hostOps0
theorem keep0_arg5 : StableHlo.after (hostOps0 (F := Ideal)) V (Proc.devRef .tc main_arg5) = V (Proc.devRef .tc main_arg5) := by
  unwritten hostOps0
theorem keep0_arg6 : StableHlo.after (hostOps0 (F := Ideal)) V (Proc.devRef .tc main_arg6) = V (Proc.devRef .tc main_arg6) := by
  unwritten hostOps0
theorem keep0_arg7 : StableHlo.after (hostOps0 (F := Ideal)) V (Proc.devRef .tc main_arg7) = V (Proc.devRef .tc main_arg7) := by
  unwritten hostOps0
theorem keep0_arg8 : StableHlo.after (hostOps0 (F := Ideal)) V (Proc.devRef .tc main_arg8) = V (Proc.devRef .tc main_arg8) := by
  unwritten hostOps0
theorem keep0_arg9 : StableHlo.after (hostOps0 (F := Ideal)) V (Proc.devRef .tc main_arg9) = V (Proc.devRef .tc main_arg9) := by
  unwritten hostOps0
theorem keep0_arg10 : StableHlo.after (hostOps0 (F := Ideal)) V (Proc.devRef .tc main_arg10) = V (Proc.devRef .tc main_arg10) := by
  unwritten hostOps0

/-! ### Between the layers -/

/-- The second layer's aggregated rows, from the first layer's output and the edge vectors. -/
theorem rows1 : StableHlo.after (hostOps1 (F := Ideal)) V (Proc.devRef .tc main_v38)
    = aggSum256 (V (Proc.devRef .tc main_v22)) (V (Proc.devRef .tc main_v1)) (V (Proc.devRef .tc main_v3)) := by
  after_results_simp <;> rfl

/-- The second layer's weights, narrowed. -/
theorem weights1 : StableHlo.after (hostOps1 (F := Ideal)) V (Proc.devRef .tc main_v39)
    = truncf (F := Ideal) (s := S256x256) (φ := .f32) .bf16 (V (Proc.devRef .tc main_arg5)) bitsLt_bf16_f32 := by
  after_results <;> rfl

/-- The second layer's bias, as a one-row table. -/
theorem bias1 : StableHlo.after (hostOps1 (F := Ideal)) V (Proc.devRef .tc main_v40)
    = shapeCast (s := S256) S1x256 (V (Proc.devRef .tc main_arg6)) shapeCasts_S256_S1x256 := by
  after_results <;> rfl

theorem keep1_arg2 : StableHlo.after (hostOps1 (F := Ideal)) V (Proc.devRef .tc main_arg2) = V (Proc.devRef .tc main_arg2) := by
  unwritten hostOps1
theorem keep1_arg7 : StableHlo.after (hostOps1 (F := Ideal)) V (Proc.devRef .tc main_arg7) = V (Proc.devRef .tc main_arg7) := by
  unwritten hostOps1
theorem keep1_arg8 : StableHlo.after (hostOps1 (F := Ideal)) V (Proc.devRef .tc main_arg8) = V (Proc.devRef .tc main_arg8) := by
  unwritten hostOps1
theorem keep1_arg9 : StableHlo.after (hostOps1 (F := Ideal)) V (Proc.devRef .tc main_arg9) = V (Proc.devRef .tc main_arg9) := by
  unwritten hostOps1
theorem keep1_arg10 : StableHlo.after (hostOps1 (F := Ideal)) V (Proc.devRef .tc main_arg10) = V (Proc.devRef .tc main_arg10) := by
  unwritten hostOps1

/-! ### After the second layer -/

/-- The graph means, through the head's first linear map and its bias. -/
theorem head_v57 : StableHlo.after (hostOps2 (F := Ideal)) V (Proc.devRef .tc main_v57)
    = addf (Host.dotGeneral (F := Ideal) (φ₁ := .f32) (φ₂ := .f32) dot_S512x256_S256x256_S512x256_1_0_0_1_n_n none
          (graphMean (V (Proc.devRef .tc main_v41)) (V (Proc.devRef .tc main_arg2)))
          (V (Proc.devRef .tc main_arg7)))
        (broadcastInDim S512x256 ![0, 1] bcast_S1x256_S512x256_0_1
          (broadcastInDim S1x256 ![1] bcast_S256_S1x256_1 (V (Proc.devRef .tc main_arg8)))) := by
  after_results_simp <;> rfl

theorem keep2_arg9 : StableHlo.after (hostOps2 (F := Ideal)) V (Proc.devRef .tc main_arg9) = V (Proc.devRef .tc main_arg9) := by
  unwritten hostOps2
theorem keep2_arg10 : StableHlo.after (hostOps2 (F := Ideal)) V (Proc.devRef .tc main_arg10) = V (Proc.devRef .tc main_arg10) := by
  unwritten hostOps2

/-- The ReLU between the head's two linear maps. -/
theorem relu_v58 : StableHlo.after (hostOps2_1 (F := Ideal)) V (Proc.devRef .tc main_v58)
    = maximumf (V (Proc.devRef .tc main_v57) : FVec Ideal S512x256 .f32)
        (broadcastInDim S512x256 ![] bcast_S_S512x256 (constant (F := Ideal) S_ .f32 0x00000000#32)) := by
  after_results <;> rfl

theorem keep21_arg9 : StableHlo.after (hostOps2_1 (F := Ideal)) V (Proc.devRef .tc main_arg9) = V (Proc.devRef .tc main_arg9) := by
  unwritten hostOps2_1
theorem keep21_arg10 : StableHlo.after (hostOps2_1 (F := Ideal)) V (Proc.devRef .tc main_arg10) = V (Proc.devRef .tc main_arg10) := by
  unwritten hostOps2_1

/-- The head's second linear map and its bias. -/
theorem tail_v62 : StableHlo.after (hostOps2_2 (F := Ideal)) V (Proc.devRef .tc main_v62)
    = addf (Host.dotGeneral (F := Ideal) (φ₁ := .f32) (φ₂ := .f32) dot_S512x256_S256x128_S512x128_1_0_0_1_n_n none
          (V (Proc.devRef .tc main_v58)) (V (Proc.devRef .tc main_arg9)))
        (broadcastInDim S512x128 ![0, 1] bcast_S1x128_S512x128_0_1
          (broadcastInDim S1x128 ![1] bcast_S128_S1x128_1 (V (Proc.devRef .tc main_arg10)))) := by
  after_results <;> rfl

end Stretches

/-! ## The buffers a later stretch reads, walked back to the launch memory -/

theorem W2_arg2 (c : Dev nD) : W2 m ρ c (Proc.devRef .tc main_arg2) = m ((c : Thread nD τ).loc main_arg2) :=
  (W2_of_ne m ρ c main_arg2 (by decide)).trans (keep0_arg2 (W0 m ρ c))
theorem W2_arg5 (c : Dev nD) : W2 m ρ c (Proc.devRef .tc main_arg5) = m ((c : Thread nD τ).loc main_arg5) :=
  (W2_of_ne m ρ c main_arg5 (by decide)).trans (keep0_arg5 (W0 m ρ c))
theorem W2_arg6 (c : Dev nD) : W2 m ρ c (Proc.devRef .tc main_arg6) = m ((c : Thread nD τ).loc main_arg6) :=
  (W2_of_ne m ρ c main_arg6 (by decide)).trans (keep0_arg6 (W0 m ρ c))
theorem W2_arg7 (c : Dev nD) : W2 m ρ c (Proc.devRef .tc main_arg7) = m ((c : Thread nD τ).loc main_arg7) :=
  (W2_of_ne m ρ c main_arg7 (by decide)).trans (keep0_arg7 (W0 m ρ c))
theorem W2_arg8 (c : Dev nD) : W2 m ρ c (Proc.devRef .tc main_arg8) = m ((c : Thread nD τ).loc main_arg8) :=
  (W2_of_ne m ρ c main_arg8 (by decide)).trans (keep0_arg8 (W0 m ρ c))
theorem W2_arg9 (c : Dev nD) : W2 m ρ c (Proc.devRef .tc main_arg9) = m ((c : Thread nD τ).loc main_arg9) :=
  (W2_of_ne m ρ c main_arg9 (by decide)).trans (keep0_arg9 (W0 m ρ c))
theorem W2_arg10 (c : Dev nD) : W2 m ρ c (Proc.devRef .tc main_arg10) = m ((c : Thread nD τ).loc main_arg10) :=
  (W2_of_ne m ρ c main_arg10 (by decide)).trans (keep0_arg10 (W0 m ρ c))

/-- The source nodes are still there after the first layer's region. -/
theorem W2_src (c : Dev nD) : W2 m ρ c (Proc.devRef .tc main_v1) = srcOf (m ((c : Thread nD τ).loc main_arg1)) :=
  (W2_of_ne m ρ c main_v1 (by decide)).trans (src0 (W0 m ρ c))

/-- The target nodes are still there after the first layer's region. -/
theorem W2_dst (c : Dev nD) : W2 m ρ c (Proc.devRef .tc main_v3) = dstOf (m ((c : Thread nD τ).loc main_arg1)) :=
  (W2_of_ne m ρ c main_v3 (by decide)).trans (dst0 (W0 m ρ c))

theorem W4_arg2 (c : Dev nD) : W4 m ρ c (Proc.devRef .tc main_arg2) = m ((c : Thread nD τ).loc main_arg2) :=
  (W4_of_ne m ρ c main_arg2 (by decide)).trans ((keep1_arg2 (W2 m ρ c)).trans (W2_arg2 m ρ c))
theorem W4_arg7 (c : Dev nD) : W4 m ρ c (Proc.devRef .tc main_arg7) = m ((c : Thread nD τ).loc main_arg7) :=
  (W4_of_ne m ρ c main_arg7 (by decide)).trans ((keep1_arg7 (W2 m ρ c)).trans (W2_arg7 m ρ c))
theorem W4_arg8 (c : Dev nD) : W4 m ρ c (Proc.devRef .tc main_arg8) = m ((c : Thread nD τ).loc main_arg8) :=
  (W4_of_ne m ρ c main_arg8 (by decide)).trans ((keep1_arg8 (W2 m ρ c)).trans (W2_arg8 m ρ c))
theorem W4_arg9 (c : Dev nD) : W4 m ρ c (Proc.devRef .tc main_arg9) = m ((c : Thread nD τ).loc main_arg9) :=
  (W4_of_ne m ρ c main_arg9 (by decide)).trans ((keep1_arg9 (W2 m ρ c)).trans (W2_arg9 m ρ c))
theorem W4_arg10 (c : Dev nD) : W4 m ρ c (Proc.devRef .tc main_arg10) = m ((c : Thread nD τ).loc main_arg10) :=
  (W4_of_ne m ρ c main_arg10 (by decide)).trans ((keep1_arg10 (W2 m ρ c)).trans (W2_arg10 m ρ c))

theorem W6_arg9 (c : Dev nD) : W6 m ρ c (Proc.devRef .tc main_arg9) = m ((c : Thread nD τ).loc main_arg9) :=
  (keep21_arg9 (W5 m ρ c)).trans ((keep2_arg9 (W4 m ρ c)).trans (W4_arg9 m ρ c))
theorem W6_arg10 (c : Dev nD) : W6 m ρ c (Proc.devRef .tc main_arg10) = m ((c : Thread nD τ).loc main_arg10) :=
  (keep21_arg10 (W5 m ρ c)).trans ((keep2_arg10 (W4 m ρ c)).trans (W4_arg10 m ρ c))

/-! ## What the regions find, and what the program returns -/

/-- The first region's rows: the node array with every edge's source row added in at its target. -/
theorem entry0_rows (c : Dev nD) : V1 m ρ c main_v19
    = aggSum128 (m ((c : Thread nD τ).loc main_arg0)) (srcOf (m ((c : Thread nD τ).loc main_arg1))) (dstOf (m ((c : Thread nD τ).loc main_arg1))) :=
  rows0 (W0 m ρ c)

/-- The first region's weights: the argument, narrowed. -/
theorem entry0_weights (c : Dev nD) : V1 m ρ c main_v20
    = truncf (F := Ideal) (s := S128x256) (φ := .f32) .bf16 (m ((c : Thread nD τ).loc main_arg3)) bitsLt_bf16_f32 :=
  weights0 (W0 m ρ c)

/-- The first region's bias: the argument as a one-row table. -/
theorem entry0_bias (c : Dev nD) : V1 m ρ c main_v21 = shapeCast S1x256 (m ((c : Thread nD τ).loc main_arg4)) shapeCasts_S256_S1x256 :=
  bias0 (W0 m ρ c)

/-- The second region's rows: the first region's output with every edge's source row added in at its target. -/
theorem entry1_rows (c : Dev nD) : V3 m ρ c main_v38
    = aggSum256 (W2 m ρ c (Proc.devRef .tc main_v22)) (srcOf (m ((c : Thread nD τ).loc main_arg1))) (dstOf (m ((c : Thread nD τ).loc main_arg1))) := by
  have e : V3 m ρ c main_v38 = _ := rows1 (W2 m ρ c)
  rw [e, W2_src, W2_dst]

/-- The second region's weights: the argument, narrowed. -/
theorem entry1_weights (c : Dev nD) : V3 m ρ c main_v39
    = truncf (F := Ideal) (s := S256x256) (φ := .f32) .bf16 (m ((c : Thread nD τ).loc main_arg5)) bitsLt_bf16_f32 := by
  have e : V3 m ρ c main_v39 = _ := weights1 (W2 m ρ c)
  rw [e, W2_arg5]

/-- The second region's bias: the argument as a one-row table. -/
theorem entry1_bias (c : Dev nD) : V3 m ρ c main_v40 = shapeCast S1x256 (m ((c : Thread nD τ).loc main_arg6)) shapeCasts_S256_S1x256 := by
  have e : V3 m ρ c main_v40 = _ := bias1 (W2 m ρ c)
  rw [e, W2_arg6]

/-- The result: the second region's output, averaged per graph and sent through the projection head. -/
theorem result_fold (c : Dev nD) : W7 m ρ c (Proc.devRef .tc main_v62)
    = poolHead (W4 m ρ c (Proc.devRef .tc main_v41)) (m ((c : Thread nD τ).loc main_arg2)) (m ((c : Thread nD τ).loc main_arg7)) (m ((c : Thread nD τ).loc main_arg8)) (m ((c : Thread nD τ).loc main_arg9)) (m ((c : Thread nD τ).loc main_arg10)) := by
  have e7 : W7 m ρ c (Proc.devRef .tc main_v62) = _ := tail_v62 (W6 m ρ c)
  have e6 : W6 m ρ c (Proc.devRef .tc main_v58) = _ := relu_v58 (W5 m ρ c)
  have e5 : W5 m ρ c (Proc.devRef .tc main_v57) = _ := head_v57 (W4 m ρ c)
  unfold poolHead projHead
  rw [e7, e6, e5, W6_arg9, W6_arg10, W4_arg2, W4_arg7, W4_arg8]

end Cert.KernelIdeal.GinFold

end
-- ==== Proof.RegionValue0.lean ====
/-
  What the first pallas region leaves in its result array, as one function of the arrays it reads.

  The region is a Linear + ReLU over ten grid points. Point `t` reads rows `5000 t … 5000 t + 4999` of the [50000, 128]
  rows, the whole [128, 256] weight and the whole [1, 256] bias, and writes rows `5000 t … 5000 t + 4999` of the
  [50000, 256] result. Entry `(p, q)` of what it stores is `max (∑ k, rows (p, k) · weight (k, q) + bias (0, q)) 0`: the
  matrix unit's product into a zero accumulator is the plain sum of products, the bias row is broadcast down the rows, and
  the ReLU's zero is the real zero. Read through the point's block this is entry `(5000 t + p, q)` of `layerOut128` of the
  three arrays; the ten blocks tile the result (row `r` lies in block `r / 5000`), so the array ends holding `layerOut128`.
-/
import proofs.«161108_j79663053406797_2_alg».proof.Proof.Gen.KernelIdeal.Frame
import proofs.«161108_j79663053406797_2_alg».proof.Proof.GinSpec
import proofs.«161108_j79663053406797_2_alg».proof.Proof.LibRowsTimes
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.GinRegion

open Cert.KernelIdeal Cert.KernelIdeal.Gen Cert.Gin
open Idealize.ShloMosaic Idealize.ShloMosaic.TcCoe Idealize.ShloMosaic.ValueIdx Idealize.SL.Sem
open Idealize.ShloMosaic.Pipeline (Dat)

/-- One entry of the first layer's block: the row of the input block times the column of the weight, plus the bias at the
    column, clamped below at zero. -/
theorem pay0_apply (x0 : Vec Ideal S5000x128 .f32) (x1 : Vec Ideal S128x256 .bf16) (x2 : Vec Ideal S1x256 .f32)
    (p : Fin 5000) (q : Fin 256) :
    k0_pay1 x0 x1 x2 (ix2 p q) = max ((∑ k : Fin 128, x0 (ix2 p k) * x1 (ix2 k q)) + x2 (ix2 (0 : Fin 1) q)) 0 := by
  unfold k0_pay1
  simp only [shapeCast_self]
  rw [maximumf_apply, addf_apply, broadcast_apply]
  refine congrArg₂ max (congrArg₂ (· + ·) ?_ ?_) ?_
  · exact RowsTimes.matmul_zero_apply dot_S5000x128_S128x256_S5000x256_1_0_0_1_n_n rfl rfl rfl rfl rfl rfl rfl rfl none
      (truncf .bf16 x0 bitsLt_bf16_f32) x1 p q
  · exact ValueIdx.broadcastTo_1b_ab_apply x2 broadcasts_S1x256_S5000x256 p q
  · exact Ideal.ofBits_zero_f32

variable (V : (c : Dev nD) → (b : Ref sig .tc) → Buf (Elt Ideal) ((c : Thread nD τ).loc b))

private theorem zero_offsets : (![0, 0] : Fin 2 → Nat) = fun _ => 0 := funext fun a => by fin_cases a <;> rfl

/-- The first layer's block index maps over the grid: the rows' and the result's blocks move down together, one block a
    point; the weight and the bias stay whole. -/
theorem block_indices0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of the rows' block at point `t` is row `5000 t + p` of the rows' array. -/
theorem rows0_apply (c : Dev nD) (t : Fin cfg0.N) (p : Fin 5000) (k : Fin 128) (n : Fin 50000)
    (hn : n.val = t.val * 5000 + p.val) :
    (iblk0 V c 0 t : Vec Ideal S5000x128 .f32) (ix2 p k) = (V c main_v19 : FVec Ideal S50000x128 .f32) (ix2 n k) := by
  obtain ⟨e0, e1, -⟩ := block_indices0 t
  unfold iblk0
  rw [View.read_apply]
  show V c main_v19 _ = V c main_v19 _
  congr 1
  funext a
  apply Fin.ext
  match a with
  | ⟨0, _⟩ => show win0_0.index t (0 : Fin 2) * 5000 + 1 * p.val = n.val; rw [e0, hn]; omega
  | ⟨1, _⟩ => show win0_0.index t (1 : Fin 2) * 128 + 1 * k.val = k.val; rw [e1]; omega

/-- The weight's block at every point is the whole weight. -/
theorem weight0_apply (c : Dev nD) (t : Fin cfg0.N) (k : Fin 128) (q : Fin 256) :
    (iblk0 V c 1 t : Vec Ideal S128x256 .bf16) (ix2 k q) = (V c main_v20 : FVec Ideal S128x256 .bf16) (ix2 k q) := by
  obtain ⟨-, -, e0, e1, -⟩ := block_indices0 t
  unfold iblk0
  rw [View.read_apply]
  show V c main_v20 _ = V c main_v20 _
  congr 1
  funext a
  apply Fin.ext
  match a with
  | ⟨0, _⟩ => show win0_1.index t (0 : Fin 2) * 128 + 1 * k.val = k.val; rw [e0]; omega
  | ⟨1, _⟩ => show win0_1.index t (1 : Fin 2) * 256 + 1 * q.val = q.val; rw [e1]; omega

/-- The bias's block at every point is the whole bias. -/
theorem bias0_apply (c : Dev nD) (t : Fin cfg0.N) (q : Fin 256) :
    (iblk0 V c 2 t : Vec Ideal S1x256 .f32) (ix2 (0 : Fin 1) q) = (V c main_v21 : FVec Ideal S1x256 .f32) (ix2 (0 : Fin 1) q) := by
  obtain ⟨-, -, -, -, e0, e1, -⟩ := block_indices0 t
  unfold iblk0
  rw [View.read_apply]
  show V c main_v21 _ = V c main_v21 _
  congr 1
  funext a
  apply Fin.ext
  match a with
  | ⟨0, _⟩ => show win0_2.index t (0 : Fin 2) * 1 + 1 * (0 : Fin 1).val = (0 : Fin 1).val; rw [e0]; rfl
  | ⟨1, _⟩ => show win0_2.index t (1 : Fin 2) * 256 + 1 * q.val = q.val; rw [e1]; omega

/-- What point `t` writes back is block `t` of the first layer's output. -/
theorem flushed0_eq (c : Dev nD) (t : Fin cfg0.N) :
    (dat0 (F := Ideal) V c).flushed 3 t
      = ((cfg0.win 3).blk t).view.read (Elt Ideal) (layerOut128 (V c main_v19) (V c main_v20) (V c main_v21)) := by
  show (cfg0.win 3).cut (grid0.coords t) ((dat0 V c).after 3 t) = _
  rw [after0_3]
  unfold out0_3
  rw [View.canon_unit_zero zero_offsets]
  simp only [View.ld_unit_zero (S := S5000x128) zero_offsets, View.ld_unit_zero (S := S128x256) zero_offsets,
    View.ld_unit_zero (S := S1x256) zero_offsets]
  obtain ⟨-, -, -, -, -, -, e0, e1⟩ := block_indices0 t
  have ht : t.val < 10 := lt_of_lt_of_eq t.isLt N_0
  funext j
  obtain ⟨p, q, rfl⟩ : ∃ (p : Fin 5000) (q : Fin 256), j = ix2 p q := ⟨j 0, j 1, eq_ix2 j⟩
  have hp : p.val < 5000 := p.isLt
  show k0_pay1 (iblk0 V c 0 t) (iblk0 V c 1 t) (iblk0 V c 2 t) (ix2 p q)
    = layerOut128 (V c main_v19) (V c main_v20) (V c main_v21) (((cfg0.win 3).blk t).view.emb (ix2 p q))
  have hemb : ((cfg0.win 3).blk t).view.emb (ix2 p q) = ix2 (⟨t.val * 5000 + p.val, by omega⟩ : Fin 50000) q := by
    funext a
    apply Fin.ext
    match a with
    | ⟨0, _⟩ => show win0_3.index t (0 : Fin 2) * 5000 + 1 * p.val = t.val * 5000 + p.val; rw [e0]; omega
    | ⟨1, _⟩ => show win0_3.index t (1 : Fin 2) * 256 + 1 * q.val = q.val; rw [e1]; omega
  rw [hemb, layerOut128_apply]
  refine (pay0_apply _ _ _ p q).trans ?_
  refine congrArg₂ max (congrArg₂ (· + ·) (Finset.sum_congr rfl fun k _ => congrArg₂ (· * ·) ?_ ?_) ?_) rfl
  · exact rows0_apply V c t p k _ rfl
  · exact weight0_apply V c t k q
  · exact bias0_apply V c t q

/-- An index of the first layer's output is in point `t`'s block iff each coordinate is in the block's range on its axis. -/
theorem mem_block0 (t : Fin cfg0.N) (i : S50000x256.Idx) :
    i ∈ ((cfg0.win 3).blk t).view.set ↔ ∀ a : Fin 2, win0_3.index t a * S5000x256.size a ≤ (i a).val
      ∧ (i a).val < win0_3.index t a * S5000x256.size a + S5000x256.size a := by
  show i ∈ ((View.whole main_v22).slice (win0_3.rect t)).set ↔ _
  rw [View.set_slice_whole, Rect.mem_set_unit]
  exact Iff.rfl

/-- Row `r` of the first layer's output is written back by point `r / 5000`. -/
theorem cover0 (i : S50000x256.Idx) :
    ∃ t : Fin cfg0.N, (cfg0.win 3).flush t = true ∧ i ∈ ((cfg0.win 3).blk t).view.set := by
  have hi0 : (i 0).val < 50000 := (i 0).isLt
  have hi1 : (i 1).val < 256 := (i 1).isLt
  have hN : cfg0.N = 10 := N_0
  refine ⟨⟨(i 0).val / 5000, by rw [hN]; omega⟩, flush0_3 _, ?_⟩
  obtain ⟨-, -, -, -, -, -, e0, e1⟩ := block_indices0 ⟨(i 0).val / 5000, by rw [hN]; omega⟩
  rw [mem_block0]
  intro a
  match a with
  | ⟨0, _⟩ =>
    show win0_3.index _ (0 : Fin 2) * 5000 ≤ (i 0).val ∧ (i 0).val < win0_3.index _ (0 : Fin 2) * 5000 + 5000
    rw [e0]
    show (i 0).val / 5000 * 5000 ≤ (i 0).val ∧ (i 0).val < (i 0).val / 5000 * 5000 + 5000
    omega
  | ⟨1, _⟩ =>
    show win0_3.index _ (1 : Fin 2) * 256 ≤ (i 1).val ∧ (i 1).val < win0_3.index _ (1 : Fin 2) * 256 + 256
    rw [e1]
    omega

/-- The first region leaves the first layer's output in its result array. -/
theorem region0_value (c : Dev nD) :
    (dat0 (F := Ideal) V c).arrAt 3 cfg0.N = layerOut128 (V c main_v19) (V c main_v20) (V c main_v21) :=
  (dat0 (F := Ideal) V c).arrAt_eq_of_cover 3 (layerOut128 (V c main_v19) (V c main_v20) (V c main_v21))
    (fun t _ => flushed0_eq V c t) cover0

end Cert.KernelIdeal.GinRegion

end
-- ==== Proof.RegionValue1.lean ====
/-
  What the second pallas region leaves in its result array, as one function of the arrays it reads.

  The region is a Linear + ReLU over ten grid points. Point `t` reads rows `5000 t … 5000 t + 4999` of the [50000, 256]
  rows, the whole [256, 256] weight and the whole [1, 256] bias, and writes rows `5000 t … 5000 t + 4999` of the
  [50000, 256] result. Entry `(p, q)` of what it stores is `max (∑ k, rows (p, k) · weight (k, q) + bias (0, q)) 0`: the
  matrix unit's product into a zero accumulator is the plain sum of products, the bias row is broadcast down the rows, and
  the ReLU's zero is the real zero. Read through the point's block this is entry `(5000 t + p, q)` of `layerOut256` of the
  three arrays; the ten blocks tile the result (row `r` lies in block `r / 5000`), so the array ends holding `layerOut256`.
-/
import proofs.«161108_j79663053406797_2_alg».proof.Proof.Gen.KernelIdeal.Frame
import proofs.«161108_j79663053406797_2_alg».proof.Proof.GinSpec
import proofs.«161108_j79663053406797_2_alg».proof.Proof.LibRowsTimes
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.GinRegion

open Cert.KernelIdeal Cert.KernelIdeal.Gen Cert.Gin
open Idealize.ShloMosaic Idealize.ShloMosaic.TcCoe Idealize.ShloMosaic.ValueIdx Idealize.SL.Sem
open Idealize.ShloMosaic.Pipeline (Dat)

/-- One entry of the second layer's block: the row of the input block times the column of the weight, plus the bias at the
    column, clamped below at zero. -/
theorem pay1_apply (x0 : Vec Ideal S5000x256 .f32) (x1 : Vec Ideal S256x256 .bf16) (x2 : Vec Ideal S1x256 .f32)
    (p : Fin 5000) (q : Fin 256) :
    k1_pay1 x0 x1 x2 (ix2 p q) = max ((∑ k : Fin 256, x0 (ix2 p k) * x1 (ix2 k q)) + x2 (ix2 (0 : Fin 1) q)) 0 := by
  unfold k1_pay1
  simp only [shapeCast_self]
  rw [maximumf_apply, addf_apply, broadcast_apply]
  refine congrArg₂ max (congrArg₂ (· + ·) ?_ ?_) ?_
  · exact RowsTimes.matmul_zero_apply dot_S5000x256_S256x256_S5000x256_1_0_0_1_n_n rfl rfl rfl rfl rfl rfl rfl rfl none
      (truncf .bf16 x0 bitsLt_bf16_f32) x1 p q
  · exact ValueIdx.broadcastTo_1b_ab_apply x2 broadcasts_S1x256_S5000x256 p q
  · exact Ideal.ofBits_zero_f32

variable (V : (c : Dev nD) → (b : Ref sig .tc) → Buf (Elt Ideal) ((c : Thread nD τ).loc b))

private theorem zero_offsets : (![0, 0] : Fin 2 → Nat) = fun _ => 0 := funext fun a => by fin_cases a <;> rfl

/-- The second layer's block index maps over the grid: the rows' and the result's blocks move down together, one block a
    point; the weight and the bias stay whole. -/
theorem block_indices1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row `p` of the rows' block at point `t` is row `5000 t + p` of the rows' array. -/
theorem rows1_apply (c : Dev nD) (t : Fin cfg1.N) (p : Fin 5000) (k : Fin 256) (n : Fin 50000)
    (hn : n.val = t.val * 5000 + p.val) :
    (iblk1 V c 0 t : Vec Ideal S5000x256 .f32) (ix2 p k) = (V c main_v38 : FVec Ideal S50000x256 .f32) (ix2 n k) := by
  obtain ⟨e0, e1, -⟩ := block_indices1 t
  unfold iblk1
  rw [View.read_apply]
  show V c main_v38 _ = V c main_v38 _
  congr 1
  funext a
  apply Fin.ext
  match a with
  | ⟨0, _⟩ => show win1_0.index t (0 : Fin 2) * 5000 + 1 * p.val = n.val; rw [e0, hn]; omega
  | ⟨1, _⟩ => show win1_0.index t (1 : Fin 2) * 256 + 1 * k.val = k.val; rw [e1]; omega

/-- The weight's block at every point is the whole weight. -/
theorem weight1_apply (c : Dev nD) (t : Fin cfg1.N) (k : Fin 256) (q : Fin 256) :
    (iblk1 V c 1 t : Vec Ideal S256x256 .bf16) (ix2 k q) = (V c main_v39 : FVec Ideal S256x256 .bf16) (ix2 k q) := by
  obtain ⟨-, -, e0, e1, -⟩ := block_indices1 t
  unfold iblk1
  rw [View.read_apply]
  show V c main_v39 _ = V c main_v39 _
  congr 1
  funext a
  apply Fin.ext
  match a with
  | ⟨0, _⟩ => show win1_1.index t (0 : Fin 2) * 256 + 1 * k.val = k.val; rw [e0]; omega
  | ⟨1, _⟩ => show win1_1.index t (1 : Fin 2) * 256 + 1 * q.val = q.val; rw [e1]; omega

/-- The bias's block at every point is the whole bias. -/
theorem bias1_apply (c : Dev nD) (t : Fin cfg1.N) (q : Fin 256) :
    (iblk1 V c 2 t : Vec Ideal S1x256 .f32) (ix2 (0 : Fin 1) q) = (V c main_v40 : FVec Ideal S1x256 .f32) (ix2 (0 : Fin 1) q) := by
  obtain ⟨-, -, -, -, e0, e1, -⟩ := block_indices1 t
  unfold iblk1
  rw [View.read_apply]
  show V c main_v40 _ = V c main_v40 _
  congr 1
  funext a
  apply Fin.ext
  match a with
  | ⟨0, _⟩ => show win1_2.index t (0 : Fin 2) * 1 + 1 * (0 : Fin 1).val = (0 : Fin 1).val; rw [e0]; rfl
  | ⟨1, _⟩ => show win1_2.index t (1 : Fin 2) * 256 + 1 * q.val = q.val; rw [e1]; omega

/-- What point `t` writes back is block `t` of the second layer's output. -/
theorem flushed1_eq (c : Dev nD) (t : Fin cfg1.N) :
    (dat1 (F := Ideal) V c).flushed 3 t
      = ((cfg1.win 3).blk t).view.read (Elt Ideal) (layerOut256 (V c main_v38) (V c main_v39) (V c main_v40)) := by
  show (cfg1.win 3).cut (grid1.coords t) ((dat1 V c).after 3 t) = _
  rw [after1_3]
  unfold out1_3
  rw [View.canon_unit_zero zero_offsets]
  simp only [View.ld_unit_zero (S := S5000x256) zero_offsets, View.ld_unit_zero (S := S256x256) zero_offsets,
    View.ld_unit_zero (S := S1x256) zero_offsets]
  obtain ⟨-, -, -, -, -, -, e0, e1⟩ := block_indices1 t
  have ht : t.val < 10 := lt_of_lt_of_eq t.isLt N_1
  funext j
  obtain ⟨p, q, rfl⟩ : ∃ (p : Fin 5000) (q : Fin 256), j = ix2 p q := ⟨j 0, j 1, eq_ix2 j⟩
  have hp : p.val < 5000 := p.isLt
  show k1_pay1 (iblk1 V c 0 t) (iblk1 V c 1 t) (iblk1 V c 2 t) (ix2 p q)
    = layerOut256 (V c main_v38) (V c main_v39) (V c main_v40) (((cfg1.win 3).blk t).view.emb (ix2 p q))
  have hemb : ((cfg1.win 3).blk t).view.emb (ix2 p q) = ix2 (⟨t.val * 5000 + p.val, by omega⟩ : Fin 50000) q := by
    funext a
    apply Fin.ext
    match a with
    | ⟨0, _⟩ => show win1_3.index t (0 : Fin 2) * 5000 + 1 * p.val = t.val * 5000 + p.val; rw [e0]; omega
    | ⟨1, _⟩ => show win1_3.index t (1 : Fin 2) * 256 + 1 * q.val = q.val; rw [e1]; omega
  rw [hemb, layerOut256_apply]
  refine (pay1_apply _ _ _ p q).trans ?_
  refine congrArg₂ max (congrArg₂ (· + ·) (Finset.sum_congr rfl fun k _ => congrArg₂ (· * ·) ?_ ?_) ?_) rfl
  · exact rows1_apply V c t p k _ rfl
  · exact weight1_apply V c t k q
  · exact bias1_apply V c t q

/-- An index of the second layer's output is in point `t`'s block iff each coordinate is in the block's range on its axis. -/
theorem mem_block1 (t : Fin cfg1.N) (i : S50000x256.Idx) :
    i ∈ ((cfg1.win 3).blk t).view.set ↔ ∀ a : Fin 2, win1_3.index t a * S5000x256.size a ≤ (i a).val
      ∧ (i a).val < win1_3.index t a * S5000x256.size a + S5000x256.size a := by
  show i ∈ ((View.whole main_v41).slice (win1_3.rect t)).set ↔ _
  rw [View.set_slice_whole, Rect.mem_set_unit]
  exact Iff.rfl

/-- Row `r` of the second layer's output is written back by point `r / 5000`. -/
theorem cover1 (i : S50000x256.Idx) :
    ∃ t : Fin cfg1.N, (cfg1.win 3).flush t = true ∧ i ∈ ((cfg1.win 3).blk t).view.set := by
  have hi0 : (i 0).val < 50000 := (i 0).isLt
  have hi1 : (i 1).val < 256 := (i 1).isLt
  have hN : cfg1.N = 10 := N_1
  refine ⟨⟨(i 0).val / 5000, by rw [hN]; omega⟩, flush1_3 _, ?_⟩
  obtain ⟨-, -, -, -, -, -, e0, e1⟩ := block_indices1 ⟨(i 0).val / 5000, by rw [hN]; omega⟩
  rw [mem_block1]
  intro a
  match a with
  | ⟨0, _⟩ =>
    show win1_3.index _ (0 : Fin 2) * 5000 ≤ (i 0).val ∧ (i 0).val < win1_3.index _ (0 : Fin 2) * 5000 + 5000
    rw [e0]
    show (i 0).val / 5000 * 5000 ≤ (i 0).val ∧ (i 0).val < (i 0).val / 5000 * 5000 + 5000
    omega
  | ⟨1, _⟩ =>
    show win1_3.index _ (1 : Fin 2) * 256 ≤ (i 1).val ∧ (i 1).val < win1_3.index _ (1 : Fin 2) * 256 + 256
    rw [e1]
    omega

/-- The second region leaves the second layer's output in its result array. -/
theorem region1_value (c : Dev nD) :
    (dat1 (F := Ideal) V c).arrAt 3 cfg1.N = layerOut256 (V c main_v38) (V c main_v39) (V c main_v40) :=
  (dat1 (F := Ideal) V c).arrAt_eq_of_cover 3 (layerOut256 (V c main_v38) (V c main_v39) (V c main_v40))
    (fun t _ => flushed1_eq V c t) cover1

end Cert.KernelIdeal.GinRegion

end
-- ==== Proof.GinOut.lean ====
/-
  The whole computation as one function of the eleven arguments: two rounds of "aggregate over the in-edges, then
  Linear + ReLU", the per-graph means, the projection head. The weights enter the layers narrowed to the matrix unit's
  input format (the identity on the extended reals) and the biases as one-row matrices.
-/
import proofs.«161108_j79663053406797_2_alg».proof.Proof.GinSpec

noncomputable section

namespace Cert.Gin

open Idealize.ShloMosaic Idealize.ShloMosaic.ValueIdx Cert.KernelIdeal Cert.KernelIdeal.Gen

/-- The node rows after layer 1. -/
def hidden1 (x : FVec Ideal S50000x128 .f32) (ei : IVec S2x800000 32) (W1 : FVec Ideal S128x256 .f32)
    (b1 : FVec Ideal S256 .f32) : FVec Ideal S50000x256 .f32 :=
  layerOut128 (aggSum128 x (srcOf ei) (dstOf ei)) (truncf .bf16 W1 bitsLt_bf16_f32)
    (shapeCast S1x256 b1 shapeCasts_S256_S1x256)

/-- The node rows after layer 2. -/
def hidden2 (x : FVec Ideal S50000x128 .f32) (ei : IVec S2x800000 32) (W1 : FVec Ideal S128x256 .f32)
    (b1 : FVec Ideal S256 .f32) (W2 : FVec Ideal S256x256 .f32) (b2 : FVec Ideal S256 .f32) :
    FVec Ideal S50000x256 .f32 :=
  layerOut256 (aggSum256 (hidden1 x ei W1 b1) (srcOf ei) (dstOf ei)) (truncf .bf16 W2 bitsLt_bf16_f32)
    (shapeCast S1x256 b2 shapeCasts_S256_S1x256)

/-- The result: the graph means of the second layer's rows through the projection head. -/
def ginOut (x : FVec Ideal S50000x128 .f32) (ei : IVec S2x800000 32) (batch : IVec S50000 32)
    (W1 : FVec Ideal S128x256 .f32) (b1 : FVec Ideal S256 .f32) (W2 : FVec Ideal S256x256 .f32)
    (b2 : FVec Ideal S256 .f32) (P1 : FVec Ideal S256x256 .f32) (pb1 : FVec Ideal S256 .f32)
    (P2 : FVec Ideal S256x128 .f32) (pb2 : FVec Ideal S128 .f32) : FVec Ideal S512x128 .f32 :=
  poolHead (hidden2 x ei W1 b1 W2 b2) batch P1 pb1 P2 pb2

end Cert.Gin

end
-- ==== Proof.KernelValue.lean ====
/-
  What the idealized kernel program leaves in its result buffer: the specification's function of the arguments.

  Read from the end. The result is the pooling and projection of what region 1 left in its output array; that array is one
  layer's output of the rows region 1 found, which the host operations before it made by aggregating, over the edges, what
  region 0 left; and region 0's output array is one layer's output of the aggregated input rows. The weights and biases
  reach the regions narrowed and re-laid by host operations only, and nothing writes an argument.
-/
import proofs.«161108_j79663053406797_2_alg».proof.Proof.KernelFold
import proofs.«161108_j79663053406797_2_alg».proof.Proof.RegionValue0
import proofs.«161108_j79663053406797_2_alg».proof.Proof.RegionValue1
import proofs.«161108_j79663053406797_2_alg».proof.Proof.GinOut

set_option maxRecDepth 16384

noncomputable section

namespace Cert.KernelIdeal.GinValue

open Cert.KernelIdeal Cert.KernelIdeal.Gen Cert.Gin Idealize.ShloMosaic Idealize.ShloMosaic.TcCoe Idealize.SL.Sem

variable (m : (ℓ : Loc nD τ sig) → Buf (Elt Ideal) ℓ) (ρ : Dev nD → PrngReg)

/-- Region 0's output array at its exit: layer 1's rows. -/
theorem exit0 (c : Dev nD) :
    W2 m ρ c (Proc.devRef .tc main_v22)
      = hidden1 (m ((c : Thread nD τ).loc main_arg0)) (m ((c : Thread nD τ).loc main_arg1))
          (m ((c : Thread nD τ).loc main_arg3)) (m ((c : Thread nD τ).loc main_arg4)) := by
  refine (W2_arr m ρ c 3).trans ?_
  rw [GinRegion.region0_value (V1 m ρ) c, GinFold.entry0_rows, GinFold.entry0_weights, GinFold.entry0_bias]
  rfl

/-- Region 1's output array at its exit: layer 2's rows. -/
theorem exit1 (c : Dev nD) :
    W4 m ρ c (Proc.devRef .tc main_v41)
      = hidden2 (m ((c : Thread nD τ).loc main_arg0)) (m ((c : Thread nD τ).loc main_arg1))
          (m ((c : Thread nD τ).loc main_arg3)) (m ((c : Thread nD τ).loc main_arg4))
          (m ((c : Thread nD τ).loc main_arg5)) (m ((c : Thread nD τ).loc main_arg6)) := by
  refine (W4_arr m ρ c 3).trans ?_
  rw [GinRegion.region1_value (V3 m ρ) c, GinFold.entry1_rows, GinFold.entry1_weights, GinFold.entry1_bias, exit0]
  rfl

/-- THE KERNEL PROGRAM'S RESULT as the specification's function of the launch memory's arguments. -/
theorem result_eq (c : Dev nD) :
    W7 m ρ c (Proc.devRef .tc main_v62)
      = ginOut (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7))
          (m ((c : Thread nD τ).loc main_arg8)) (m ((c : Thread nD τ).loc main_arg9))
          (m ((c : Thread nD τ).loc main_arg10)) := by
  rw [GinFold.result_fold, exit1]
  rfl

end Cert.KernelIdeal.GinValue

end
-- ==== Proof.GinLaws.lean ====
/-
  Two laws the bridge between the programs rests on.

  * Python's reading of a negative position adds the axis length to it; where every position is already nonnegative it
    changes nothing (`wrapNeg_of_nonneg`).
  * Scatter-adding updates INTO an array gives that array plus the result of scatter-adding the same updates into
    zeros: at each index both are the array's entry plus the sum of the updates that land there, and `0 + s = s` on the
    extended reals with no finiteness needed (`scatterAdd_start`).
-/
import proofs.«161108_j79663053406797_2_alg».proof.Proof.GinSpec
import Idealize.ShloMosaic.Lib.Affine

noncomputable section

namespace Cert.Gin

open Idealize.ShloMosaic Idealize.ShloMosaic.ValueIdx Cert.KernelIdeal Cert.KernelIdeal.Gen

/-- Where every position, read signed, is nonnegative, the wrap of negative positions is the identity. -/
theorem wrapNeg_of_nonneg (v : IVec S800000 32) (h : ∀ i, (0 : Int) ≤ (v i).toInt) : wrapNeg v = v := by
  funext i
  unfold wrapNeg
  rw [select_apply]
  have hc : ¬ (IntOp.cmpi .slt (v i) (0#32) = 1#1) := by
    rw [IntOp.cmpi_slt]
    have h0 : (0#32 : BitVec 32).toInt = 0 := by decide
    rw [h0]
    exact not_lt.mpr (h i)
  show Scalar.select (IntOp.cmpi .slt (v i) (0#32)) _ (v i) = v i
  unfold Scalar.select
  exact if_neg hc

/-- Scatter-adding into `x` is `x` plus scatter-adding into an array of zeros. -/
theorem scatterAdd_start {s si su : Shape} {φ : FTy} {w : Nat} (d : ScatterDims s si su)
    (x z : FVec Ideal s φ) (idx : IVec si w) (upd : FVec Ideal su φ) (hz : ∀ i, z i = (0 : EReal)) :
    Host.scatterAdd (F := Ideal) d x idx upd = addf x (Host.scatterAdd (F := Ideal) d z idx upd) := by
  funext i
  show Ideal.hostScatterAdd d x idx upd i = x i + Ideal.hostScatterAdd d z idx upd i
  simp only [Ideal.hostScatterAdd, hz, zero_add]

end Cert.Gin

end
-- ==== Proof.GinRef.lean ====
/-
  The reference program's stages as the specification's functions.
-/
import proofs.«161108_j79663053406797_2_alg».proof.Proof.Gen.ReferenceIdeal.Read
import proofs.«161108_j79663053406797_2_alg».proof.Proof.GinSpec
import proofs.«161108_j79663053406797_2_alg».proof.Proof.GinLaws
import proofs.«161108_j79663053406797_2_alg».proof.Proof.GinOut
import Idealize.ShloMosaic.Lib.ValueLayout
import Idealize.ShloMosaic.PureOps.Ideal.Laws

set_option maxRecDepth 16384

noncomputable section

namespace Cert.ReferenceIdeal.GinRef

open Cert.ReferenceIdeal Cert.ReferenceIdeal.Gen Cert.ReferenceIdeal.Read Idealize.ShloMosaic Idealize.ShloMosaic.ValueIdx

/-- The zero array the reference's segment sums start from is zero everywhere. -/
theorem zeros128 (i : S50000x128.Idx) : val_main_v11 (F := Ideal) i = (0 : EReal) := by
  rw [val_main_v11_apply, val_main_cst_apply]
  exact Ideal.ofBits_zero_f32

theorem agg1_shape (x : FVec Ideal S50000x128 .f32) (ei : IVec S2x800000 32) :
    val_main_v14 (F := Ideal) x ei
      = addf x (Host.scatterAdd (F := Ideal) Cert.KernelIdeal.scatter_S50000x128_S800000x1_S800000x128_1_0_0_1 (val_main_v11 (F := Ideal))
          (Cert.Gin.column (Cert.Gin.dstOf ei))
          (Host.gather Cert.KernelIdeal.gather_S50000x128_S800000x1_S800000x128_1_0_n_n_0_1_1128 x (Cert.Gin.column (Cert.Gin.wrapNeg (Cert.Gin.srcOf ei))))) := rfl

/-- Layer 1's aggregation: where the wrap of the targets changes nothing, the reference's "array plus segment sum" is
    the scatter-add into the array itself. -/
theorem agg1 (x : FVec Ideal S50000x128 .f32) (ei : IVec S2x800000 32)
    (hdst : Cert.Gin.wrapNeg (Cert.Gin.dstOf ei) = Cert.Gin.dstOf ei) :
    val_main_v14 (F := Ideal) x ei = Cert.Gin.aggSum128 x (Cert.Gin.srcOf ei) (Cert.Gin.dstOf ei) := by
  rw [agg1_shape]
  unfold Cert.Gin.aggSum128
  rw [hdst]
  exact (Cert.Gin.scatterAdd_start _ x _ _ _ zeros128).symm

/-- Layer 1's Linear + ReLU, index by index: the host's product is the sum over the contracted axis, the bias row is
    read at the column, and the ReLU's zero is the zero word. -/
theorem layer1 (x : FVec Ideal S50000x128 .f32) (ei : IVec S2x800000 32) (W1 : FVec Ideal S128x256 .f32)
    (b1 : FVec Ideal S256 .f32) :
    val_main_v19 (F := Ideal) x ei W1 b1
      = Cert.Gin.layerOut128 (val_main_v14 (F := Ideal) x ei)
          (truncf .bf16 W1 Cert.KernelIdeal.Gen.bitsLt_bf16_f32)
          (shapeCast Cert.KernelIdeal.S1x256 b1 Cert.KernelIdeal.Gen.shapeCasts_S256_S1x256) := by
  funext i
  obtain ⟨n, c, rfl⟩ : ∃ (n : Fin 50000) (c : Fin 256), i = ix2 n c := ⟨i 0, i 1, eq_ix2 i⟩
  have el : ∀ k : Fin 128, lidx_main_v15 (ix2 n c) k = ix2 n k := fun k => funext fun a => Fin.ext (by
    match a with
    | ⟨0, _⟩ => rfl
    | ⟨1, _⟩ => rfl)
  have er : ∀ k : Fin 128, ridx_main_v15 (ix2 n c) k = ix2 k c := fun k => funext fun a => Fin.ext (by
    match a with
    | ⟨0, _⟩ => rfl
    | ⟨1, _⟩ => rfl)
  have eb : idx_main_v16 (idx_main_v17 (ix2 n c)) = ix1 c := funext fun a => Fin.ext (by
    match a with
    | ⟨0, _⟩ => rfl)
  rw [val_main_v19_apply, val_main_v18_apply, val_main_v15_apply, val_main_v17_apply, val_main_v16_apply,
    val_main_call0_v0_apply, val_main_call0_cst_apply, Cert.Gin.layerOut128_apply,
    shapeCast_a_1a_apply b1 Cert.KernelIdeal.Gen.shapeCasts_S256_S1x256 (0 : Fin 1) c, eb]
  simp only [el, er, Ideal.maximumf_def, Ideal.addf_def, Ideal.ofBits_def, Ideal.ofBits_zero_f32, truncf_apply]

/-- The zero array layer 2's segment sum starts from. -/
theorem zeros256 (i : S50000x256.Idx) : val_main_v27 (F := Ideal) i = (0 : EReal) := by
  rw [val_main_v27_apply, val_main_cst_3_apply]
  exact Ideal.ofBits_zero_f32

theorem agg2_shape (x : FVec Ideal S50000x128 .f32) (ei : IVec S2x800000 32) (W1 : FVec Ideal S128x256 .f32)
    (b1 : FVec Ideal S256 .f32) :
    val_main_v30 (F := Ideal) x ei W1 b1
      = addf (φ := .f32) (val_main_v19 (F := Ideal) x ei W1 b1 : FVec Ideal S50000x256 .f32)
          (Host.scatterAdd (F := Ideal) (φ := .f32) Cert.KernelIdeal.scatter_S50000x256_S800000x1_S800000x256_1_0_0_1 (val_main_v27 (F := Ideal))
            (Cert.Gin.column (Cert.Gin.dstOf ei))
            (Host.gather Cert.KernelIdeal.gather_S50000x256_S800000x1_S800000x256_1_0_n_n_0_1_1256
              (val_main_v19 (F := Ideal) x ei W1 b1 : FVec Ideal S50000x256 .f32)
              (Cert.Gin.column (Cert.Gin.wrapNeg (Cert.Gin.srcOf ei))))) := rfl

/-- Layer 2's aggregation, as layer 1's. -/
theorem agg2 (x : FVec Ideal S50000x128 .f32) (ei : IVec S2x800000 32) (W1 : FVec Ideal S128x256 .f32)
    (b1 : FVec Ideal S256 .f32) (hdst : Cert.Gin.wrapNeg (Cert.Gin.dstOf ei) = Cert.Gin.dstOf ei) :
    val_main_v30 (F := Ideal) x ei W1 b1
      = Cert.Gin.aggSum256 (val_main_v19 (F := Ideal) x ei W1 b1) (Cert.Gin.srcOf ei) (Cert.Gin.dstOf ei) := by
  rw [agg2_shape]
  generalize (val_main_v19 (F := Ideal) x ei W1 b1 : FVec Ideal S50000x256 .f32) = h
  unfold Cert.Gin.aggSum256
  rw [hdst]
  exact (Cert.Gin.scatterAdd_start _ h _ _ _ zeros256).symm

/-- Layer 2's Linear + ReLU, index by index. -/
theorem layer2 (x : FVec Ideal S50000x128 .f32) (ei : IVec S2x800000 32) (W1 : FVec Ideal S128x256 .f32)
    (b1 : FVec Ideal S256 .f32) (W2 : FVec Ideal S256x256 .f32) (b2 : FVec Ideal S256 .f32) :
    val_main_v35 (F := Ideal) x ei W1 b1 W2 b2
      = Cert.Gin.layerOut256 (val_main_v30 (F := Ideal) x ei W1 b1)
          (truncf .bf16 W2 Cert.KernelIdeal.Gen.bitsLt_bf16_f32)
          (shapeCast Cert.KernelIdeal.S1x256 b2 Cert.KernelIdeal.Gen.shapeCasts_S256_S1x256) := by
  funext i
  obtain ⟨n, c, rfl⟩ : ∃ (n : Fin 50000) (c : Fin 256), i = ix2 n c := ⟨i 0, i 1, eq_ix2 i⟩
  have el : ∀ k : Fin 256, lidx_main_v31 (ix2 n c) k = ix2 n k := fun k => funext fun a => Fin.ext (by
    match a with
    | ⟨0, _⟩ => rfl
    | ⟨1, _⟩ => rfl)
  have er : ∀ k : Fin 256, ridx_main_v31 (ix2 n c) k = ix2 k c := fun k => funext fun a => Fin.ext (by
    match a with
    | ⟨0, _⟩ => rfl
    | ⟨1, _⟩ => rfl)
  have eb : idx_main_v32 (idx_main_v33 (ix2 n c)) = ix1 c := funext fun a => Fin.ext (by
    match a with
    | ⟨0, _⟩ => rfl)
  rw [val_main_v35_apply, val_main_v34_apply, val_main_v31_apply, val_main_v33_apply, val_main_v32_apply,
    val_main_call1_v0_apply, val_main_call1_cst_apply, Cert.Gin.layerOut256_apply,
    shapeCast_a_1a_apply b2 Cert.KernelIdeal.Gen.shapeCasts_S256_S1x256 (0 : Fin 1) c, eb]
  simp only [el, er, Ideal.maximumf_def, Ideal.addf_def, Ideal.ofBits_def, Ideal.ofBits_zero_f32, truncf_apply]

/-- Everything after layer 2 is the same operations in both programs. -/
theorem tail_shape (x : FVec Ideal S50000x128 .f32) (ei : IVec S2x800000 32) (batch : IVec S50000 32)
    (W1 : FVec Ideal S128x256 .f32) (b1 : FVec Ideal S256 .f32) (W2 : FVec Ideal S256x256 .f32)
    (b2 : FVec Ideal S256 .f32) (P1 : FVec Ideal S256x256 .f32) (pb1 : FVec Ideal S256 .f32)
    (P2 : FVec Ideal S256x128 .f32) (pb2 : FVec Ideal S128 .f32) :
    val_main_v56 (F := Ideal) x ei batch W1 b1 W2 b2 P1 pb1 P2 pb2
      = Cert.Gin.poolHead (val_main_v35 (F := Ideal) x ei W1 b1 W2 b2) batch P1 pb1 P2 pb2 := rfl

/-- THE REFERENCE'S RESULT is the specification's function of the arguments, where the wrap of the targets changes
    nothing. -/
theorem ref_value (x : FVec Ideal S50000x128 .f32) (ei : IVec S2x800000 32) (batch : IVec S50000 32)
    (W1 : FVec Ideal S128x256 .f32) (b1 : FVec Ideal S256 .f32) (W2 : FVec Ideal S256x256 .f32)
    (b2 : FVec Ideal S256 .f32) (P1 : FVec Ideal S256x256 .f32) (pb1 : FVec Ideal S256 .f32)
    (P2 : FVec Ideal S256x128 .f32) (pb2 : FVec Ideal S128 .f32)
    (hdst : Cert.Gin.wrapNeg (Cert.Gin.dstOf ei) = Cert.Gin.dstOf ei) :
    val_main_v56 (F := Ideal) x ei batch W1 b1 W2 b2 P1 pb1 P2 pb2
      = Cert.Gin.ginOut x ei batch W1 b1 W2 b2 P1 pb1 P2 pb2 := by
  rw [tail_shape, layer2, agg2 x ei W1 b1 hdst, layer1, agg1 x ei hdst]
  rfl

end Cert.ReferenceIdeal.GinRef

end
-- ==== Proof.PreDecode.lean ====
/-
  What the precondition says of the edge list.

  The precondition is a conjunction of `all`-reductions: nine say that a float input is finite everywhere, and the last
  that every entry of row 1 of the edge list — the TARGET node of each edge — is nonnegative when read signed. Only that
  last conjunct is used: the kernel side reads a negative target the way Python does (adding the number of nodes), the
  reference's segment sum drops it, and on nonnegative targets the two readings agree.
-/
import proofs.«161108_j79663053406797_2_alg».proof.Pre_finite_inputs
import proofs.«161108_j79663053406797_2_alg».proof.Proof.Gen.Pre_finite_inputs
import proofs.«161108_j79663053406797_2_alg».proof.Proof.GinSpec
import Idealize.ShloMosaic.Lib.ReduceAll
import Idealize.ShloMosaic.Lib.ValueIdx

set_option maxRecDepth 16384

noncomputable section

namespace Cert.Gin

open Idealize.ShloMosaic Idealize.ShloMosaic.ValueIdx

/-- A rank-0 array has one index. -/
instance : Subsingleton Cert.Pre_finite_inputs.S_.Idx := ⟨fun _ _ => funext fun d => d.elim0⟩

/-- Under the precondition every edge's target node, read signed, is nonnegative. -/
theorem dst_nonneg [hP : Cert.Pre_finite_inputs.Facts]
    (x : FVec Ideal Cert.Pre_finite_inputs.S50000x128 .f32) (ei : IVec Cert.Pre_finite_inputs.S2x800000 32)
    (batch : IVec Cert.Pre_finite_inputs.S50000 32) (W1 : FVec Ideal Cert.Pre_finite_inputs.S128x256 .f32)
    (b1 : FVec Ideal Cert.Pre_finite_inputs.S256 .f32) (W2 : FVec Ideal Cert.Pre_finite_inputs.S256x256 .f32)
    (b2 : FVec Ideal Cert.Pre_finite_inputs.S256 .f32) (P1 : FVec Ideal Cert.Pre_finite_inputs.S256x256 .f32)
    (pb1 : FVec Ideal Cert.Pre_finite_inputs.S256 .f32) (P2 : FVec Ideal Cert.Pre_finite_inputs.S256x128 .f32)
    (pb2 : FVec Ideal Cert.Pre_finite_inputs.S128 .f32)
    (h : Cert.Pre_finite_inputs.fn (F := Ideal) x ei batch W1 b1 W2 b2 P1 pb1 P2 pb2 = fun _ => 1#1)
    (i : Cert.KernelIdeal.S800000.Idx) : (0 : Int) ≤ (dstOf ei i).toInt := by
  have h0 := congrFun h ix0
  dsimp only [Cert.Pre_finite_inputs.fn, Cert.Pre_finite_inputs.fn_part1, Cert.Pre_finite_inputs.fn_part2] at h0
  have h1 := (IntOp.andi_eq_one.1 h0).2
  have h2 := Host.reduce_andi_all _ _ _ _ _ h1 i
  have h3 : (0#32 : BitVec 32).toInt ≤ (dstOf ei i).toInt := IntOp.cmpi_sge.1 h2
  have h4 : (0#32 : BitVec 32).toInt = 0 := by decide
  rw [h4] at h3
  exact h3

end Cert.Gin

end
-- ==== Proof.Claims.lean ====
/-
  The five claims.

  The three frames: the two kernel programs' are the generated frame theorems; the reference's is its run with the result
  dropped. `preserves` has no conjunct: the idealization rewrote nothing. `algebraic`: the idealized kernel program ends
  with its result buffer at the specification's function of its arguments (no hypothesis needed), and the reference ends
  at the same function of ITS arguments wherever the wrap of negative edge targets changes nothing — which the
  precondition's last conjunct (every edge's target node is nonnegative) gives; the arguments agree by hypothesis.
-/
import proofs.«161108_j79663053406797_2_alg».proof.Defs
import proofs.«161108_j79663053406797_2_alg».proof.Proof.Gen.Kernel.Frame
import proofs.«161108_j79663053406797_2_alg».proof.Proof.Gen.KernelIdeal.Frame
import proofs.«161108_j79663053406797_2_alg».proof.Proof.Gen.ReferenceIdeal.Run
import proofs.«161108_j79663053406797_2_alg».proof.Proof.Gen.ReferenceIdeal.Read
import proofs.«161108_j79663053406797_2_alg».proof.Proof.Gen.Pre_finite_inputs
import proofs.«161108_j79663053406797_2_alg».proof.Proof.KernelRun
import proofs.«161108_j79663053406797_2_alg».proof.Proof.KernelValue
import proofs.«161108_j79663053406797_2_alg».proof.Proof.GinRef
import proofs.«161108_j79663053406797_2_alg».proof.Proof.GinOut
import proofs.«161108_j79663053406797_2_alg».proof.Proof.PreDecode
import proofs.«161108_j79663053406797_2_alg».proof.Proof.GinLaws

set_option maxRecDepth 16384

noncomputable section

namespace Cert.Proof.GinClaims

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Value.run (F := Ideal) m ρ)

theorem preserves : Cert.preserves_Kernel_KernelIdeal := trivial

/-- Both idealized programs, from memories agreeing on the arguments, end with the specification's function of the
    arguments in their result buffers. The edge targets' nonnegativity is used once, on the reference's side: there a
    negative target would be dropped, where the kernel side would count it from the end. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Gen.W7 m ρ c (Proc.devRef .tc Cert.KernelIdeal.main_v62),
    Cert.KernelIdeal.GinRun.run_result m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  have hdst := Cert.Gin.wrapNeg_of_nonneg _ (Cert.Gin.dst_nonneg _ _ _ _ _ _ _ _ _ _ _ (hpre c))
  rw [Cert.ReferenceIdeal.Read.val_main_v56_eq, a0, a1, a2, a3, a4, a5, a6, a7, a8, a9, a10,
    Cert.ReferenceIdeal.GinRef.ref_value _ _ _ _ _ _ _ _ _ _ _ hdst]
  exact (Cert.KernelIdeal.GinValue.result_eq m ρ c).symm

end Cert.Proof.GinClaims

end
-- ==== Proof.lean ====
/-
  The certificate of a two-layer graph convolution with mean pooling and a projection head, against its jnp reference,
  over the extended reals.

  The kernel program aggregates each node's in-neighbours by a scatter-add INTO the node array (so the array is the
  start value), runs Linear + ReLU as a pallas region tiled over blocks of 5000 node rows, does both again on the hidden
  rows, and pools and projects on the host. The reference adds the node array to a segment sum that starts from zeros and
  computes each layer as one matrix product. On the extended reals a change of float format is the identity, the matrix
  unit's product into a zero accumulator and the host's product are the same sum, tiling the rows changes nothing, and
  `x + (0 + s) = x + s` needs no finiteness. The one place the programs differ is a NEGATIVE target node of an edge: the
  kernel side counts it from the end as Python does, the reference's segment sum drops it. The claim is therefore
  stated under the precondition's added conjunct that every edge's target node is nonnegative (for a negative one the
  reference indexes out of range); nothing else of the precondition is used.

  Modules: GinSpec / GinOut (the specification), GinLaws (the two laws), PreDecode (the precondition read back),
  KernelRun (the kernel program's run with its result named), KernelFold (its host operations read back), RegionValue0 /
  RegionValue1 (each region's output array), KernelValue (the kernel program's result), GinRef (the reference's result), Claims.
-/
import proofs.«161108_j79663053406797_2_alg».proof.Defs
import proofs.«161108_j79663053406797_2_alg».proof.Proof.Gen.Kernel
import proofs.«161108_j79663053406797_2_alg».proof.Proof.Gen.KernelIdeal
import proofs.«161108_j79663053406797_2_alg».proof.Proof.Gen.ReferenceIdeal
import proofs.«161108_j79663053406797_2_alg».proof.Proof.Gen.Pre_finite_inputs
import proofs.«161108_j79663053406797_2_alg».proof.Proof.Gen.ReferenceIdeal.Run
import proofs.«161108_j79663053406797_2_alg».proof.Proof.Gen.ReferenceIdeal.Read
import proofs.«161108_j79663053406797_2_alg».proof.Proof.Claims

noncomputable section

namespace Cert.Proof

theorem claim : Cert.Claim :=
  ⟨Cert.Kernel.Gen.facts, Cert.KernelIdeal.Gen.facts, Cert.ReferenceIdeal.Gen.facts, Cert.Pre_finite_inputs.Gen.facts,
    GinClaims.frame_k, GinClaims.frame_ki, GinClaims.frame_ri, GinClaims.preserves, GinClaims.algebraic⟩

end Cert.Proof

end
